-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S50000 : Shape := ⟨1, ![50000]⟩
abbrev S128x512 : Shape := ⟨2, ![128, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S512x1 .f32) (main_arg10 : FVec F S1 .f32) (main_v33 : IVec S_ 1) : IVec S_ 1 :=
  let main_v34 : FVec F S512x1 .f32 := Host.absf main_arg9
  let main_cst_12 : FVec F S_ .f32 := constant S_ .f32 0x7F800000#32
  let main_v35 : FVec F S512x1 .f32 := broadcastInDim S512x1 ![] bcast_S_S512x1 main_cst_12
  let main_v36 : IVec S512x1 1 := cmpf .olt main_v34 main_v35
  let main_c_13 : IVec S_ 1 := constantI S_ 1 1#1
  let main_v37 : IVec S_ 1 := (fun x v => Host.reduce IntOp.andi x v reducesTo_S512x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S512 .f32) (main_arg7 : FVec F S512x512 .f32) (main_arg8 : FVec F S512 .f32) (main_arg9 : FVec F S512x1 .f32) (main_arg10 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg7
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x400000 32) (main_arg2 : IVec S50000 32) (main_arg3 : FVec F S128x512 .f32) (main_arg4 : FVec F S512 .f32) (main_arg5 : FVec F S512x512 .f32) (main_arg6 : FVec F S512 .f32) (main_arg7 : FVec F S512x512 .f32) (main_arg8 : FVec F S512 .f32) (main_arg9 : FVec F S512x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x512 .f32 := Host.absf main_arg3
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x400000 : Shape := ⟨2, ![2, 400000]⟩
abbrev S50000 : Shape := ⟨1, ![50000]⟩
abbrev S128x512 : Shape := ⟨2, ![128, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x512 : Shape := ⟨2, ![50000, 512]⟩
abbrev S2000x128 : Shape := ⟨2, ![2000, 128]⟩
abbrev S2000x512 : Shape := ⟨2, ![2000, 512]⟩
abbrev S450000x512 : Shape := ⟨2, ![450000, 512]⟩
abbrev S1x512 : Shape := ⟨2, ![1, 512]⟩
abbrev S50000x1 : Shape := ⟨2, ![50000, 1]⟩
abbrev S2x50000 : Shape := ⟨2, ![2, 50000]⟩
abbrev S1x50000 : Shape := ⟨2, ![1, 50000]⟩
abbrev S1x1 : Shape := ⟨2, ![1, 1]⟩

abbrev nBuf : Space → Nat
  | .hbm => 144
  | .vmem => 30
  | .smem => 0
  | _ => 0

abbrev hbmTy0_0 (i : Nat) : BufTy := match i % 128 with
  | 0 => ⟨S50000x128, .f32⟩
  | 1 => ⟨S2x400000, .i32⟩
  | 2 => ⟨S50000, .i32⟩
  | 3 => ⟨S128x512, .f32⟩
  | 4 => ⟨S512, .f32⟩
  | 5 => ⟨S512x512, .f32⟩
  | 6 => ⟨S512, .f32⟩
  | 7 => ⟨S512x512, .f32⟩
  | 8 => ⟨S512, .f32⟩
  | 9 => ⟨S512x1, .f32⟩
  | 10 => ⟨S1, .f32⟩
  | 11 => ⟨S1x400000, .i32⟩
  | 12 => ⟨S400000, .i32⟩
  | 13 => ⟨S1x400000, .i32⟩
  | 14 => ⟨S400000, .i32⟩
  | 15 => ⟨S50000, .i32⟩
  | 16 => ⟨S450000, .i32⟩
  | 17 => ⟨S450000, .i32⟩
  | 18 => ⟨S_, .f32⟩
  | 19 => ⟨S450000, .f32⟩
  | 20 => ⟨S_, .f32⟩
  | 21 => ⟨S50000, .f32⟩
  | 22 => ⟨S450000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S450000, .i32⟩
  | 34 => ⟨S450000, .i1⟩
  | 35 => ⟨S_, .i32⟩
  | 36 => ⟨S450000, .i32⟩
  | 37 => ⟨S450000, .i32⟩
  | 38 => ⟨S450000, .i32⟩
  | 39 => ⟨S450000x1, .i32⟩
  | 40 => ⟨S450000, .f32⟩
  | 41 => ⟨S_, .i32⟩
  | 42 => ⟨S450000, .i32⟩
  | 43 => ⟨S450000, .i1⟩
  | 44 => ⟨S_, .i32⟩
  | 45 => ⟨S450000, .i32⟩
  | 46 => ⟨S450000, .i32⟩
  | 47 => ⟨S450000, .i32⟩
  | 48 => ⟨S450000x1, .i32⟩
  | 49 => ⟨S450000, .f32⟩
  | 50 => ⟨S450000, .f32⟩
  | 51 => ⟨S50000x512, .f32⟩
  | 52 => ⟨S_, .i32⟩
  | 53 => ⟨S450000, .i32⟩
  | 54 => ⟨S450000, .i1⟩
  | 55 => ⟨S_, .i32⟩
  | 56 => ⟨S450000, .i32⟩
  | 57 => ⟨S450000, .i32⟩
  | 58 => ⟨S450000, .i32⟩
  | 59 => ⟨S450000x1, .i32⟩
  | 60 => ⟨S450000x512, .f32⟩
  | 61 => ⟨S450000x1, .f32⟩
  | 62 => ⟨S450000x512, .f32⟩
  | 63 => ⟨S450000x512, .f32⟩
  | 64 => ⟨S_, .f32⟩
  | 65 => ⟨S50000x512, .f32⟩
  | 66 => ⟨S450000x1, .i32⟩
  | 67 => ⟨S50000x512, .f32⟩
  | 68 => ⟨S1x512, .f32⟩
  | 69 => ⟨S50000x512, .f32⟩
  | 70 => ⟨S50000x512, .f32⟩
  | 71 => ⟨S_, .i32⟩
  | 72 => ⟨S450000, .i32⟩
  | 73 => ⟨S450000, .i1⟩
  | 74 => ⟨S_, .i32⟩
  | 75 => ⟨S450000, .i32⟩
  | 76 => ⟨S450000, .i32⟩
  | 77 => ⟨S450000, .i32⟩
  | 78 => ⟨S450000x1, .i32⟩
  | 79 => ⟨S450000x512, .f32⟩
  | 80 => ⟨S450000x1, .f32⟩
  | 81 => ⟨S450000x512, .f32⟩
  | 82 => ⟨S450000x512, .f32⟩
  | 83 => ⟨S_, .f32⟩
  | 84 => ⟨S50000x512, .f32⟩
  | 85 => ⟨S450000x1, .i32⟩
  | 86 => ⟨S50000x512, .f32⟩
  | 87 => ⟨S1x512, .f32⟩
  | 88 => ⟨S50000x512, .f32⟩
  | 89 => ⟨S50000x512, .f32⟩
  | 90 => ⟨S_, .i32⟩
  | 91 => ⟨S450000, .i32⟩
  | 92 => ⟨S450000, .i1⟩
  | 93 => ⟨S_, .i32⟩
  | 94 => ⟨S450000, .i32⟩
  | 95 => ⟨S450000, .i32⟩
  | 96 => ⟨S450000, .i32⟩
  | 97 => ⟨S450000x1, .i32⟩
  | 98 => ⟨S450000x512, .f32⟩
  | 99 => ⟨S450000x1, .f32⟩
  | 100 => ⟨S450000x512, .f32⟩
  | 101 => ⟨S450000x512, .f32⟩
  | 102 => ⟨S_, .f32⟩
  | 103 => ⟨S50000x512, .f32⟩
  | 104 => ⟨S450000x1, .i32⟩
  | 105 => ⟨S50000x512, .f32⟩
  | 106 => ⟨S1x512, .f32⟩
  | 107 => ⟨S50000x512, .f32⟩
  | 108 => ⟨S_, .i32⟩
  | 109 => ⟨S50000, .i32⟩
  | 110 => ⟨S50000, .i1⟩
  | 111 => ⟨S_, .i32⟩
  | 112 => ⟨S50000, .i32⟩
  | 113 => ⟨S50000, .i32⟩
  | 114 => ⟨S50000, .i32⟩
  | 115 => ⟨S50000x1, .i32⟩
  | 116 => ⟨S2x50000, .i32⟩
  | 117 => ⟨S1x50000, .i32⟩
  | 118 => ⟨S50000, .i32⟩
  | 119 => ⟨S_, .i32⟩
  | 120 => ⟨S50000, .i32⟩
  | 121 => ⟨S50000, .i1⟩
  | 122 => ⟨S_, .i32⟩
  | 123 => ⟨S50000, .i32⟩
  | 124 => ⟨S50000, .i32⟩
  | 125 => ⟨S50000, .i32⟩
  | 126 => ⟨S50000x1, .i32⟩
  | 127 => ⟨S50000x512, .f32⟩
  | _ => ⟨S50000x128, .f32⟩

abbrev hbmTy0_1 (i : Nat) : BufTy := match i % 128 with
  | 0 => ⟨S1x50000, .i32⟩
  | 1 => ⟨S50000, .i32⟩
  | 2 => ⟨S_, .i32⟩
  | 3 => ⟨S50000, .i32⟩
  | 4 => ⟨S50000, .i1⟩
  | 5 => ⟨S_, .i32⟩
  | 6 => ⟨S50000, .i32⟩
  | 7 => ⟨S50000, .i32⟩
  | 8 => ⟨S50000, .i32⟩
  | 9 => ⟨S50000x1, .i32⟩
  | 10 => ⟨S50000x512, .f32⟩
  | 11 => ⟨S50000x512, .f32⟩
  | 12 => ⟨S50000x1, .f32⟩
  | 13 => ⟨S1x1, .f32⟩
  | 14 => ⟨S50000x1, .f32⟩
  | 15 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S1x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S512x512, .f32⟩
  | .local _ .vmem, ⟨13, _⟩ => ⟨S2000x512, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S1x512, .f32⟩
  | .local _ .vmem, ⟨18, _⟩ => ⟨S2000x512, .f32⟩
  | .local _ .vmem, ⟨19, _⟩ => ⟨S2000x512, .f32⟩
  | .local _ .vmem, ⟨20, _⟩ => ⟨S2000x512, .f32⟩
  | .local _ .vmem, ⟨21, _⟩ => ⟨S2000x512, .f32⟩
  | .local _ .vmem, ⟨22, _⟩ => ⟨S512x512, .f32⟩
  | .local _ .vmem, ⟨23, _⟩ => ⟨S2000x512, .f32⟩
  | .local _ .vmem, ⟨24, _⟩ => ⟨S2000x512, .f32⟩
  | .local _ .vmem, ⟨25, _⟩ => ⟨S2000x512, .f32⟩
  | .local _ .vmem, ⟨26, _⟩ => ⟨S2000x512, .f32⟩
  | .local _ .vmem, ⟨27, _⟩ => ⟨S1x512, .f32⟩
  | .local _ .vmem, ⟨28, _⟩ => ⟨S2000x512, .f32⟩
  | .local _ .vmem, ⟨29, _⟩ => ⟨S2000x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_15 : Ref sig .tc := ⟨.hbm, 108, rfl⟩
abbrev main_v78 : Ref sig .tc := ⟨.hbm, 109, rfl⟩
abbrev main_v79 : Ref sig .tc := ⟨.hbm, 110, rfl⟩
abbrev main_c_16 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_17 : Ref sig .tc := ⟨.hbm, 119, rfl⟩
abbrev main_v87 : Ref sig .tc := ⟨.hbm, 120, rfl⟩
abbrev main_v88 : Ref sig .tc := ⟨.hbm, 121, rfl⟩
abbrev main_c_18 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_19 : Ref sig .tc := ⟨.hbm, 130, rfl⟩
abbrev main_v96 : Ref sig .tc := ⟨.hbm, 131, rfl⟩
abbrev main_v97 : Ref sig .tc := ⟨.hbm, 132, rfl⟩
abbrev main_c_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S50000_S450000_d0 : Shape.Concatenates [S400000, S50000] S450000 0
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S2000x512_S2000x512_0_0 : ∀ a, (![0, 0] : Fin 2 → Nat) a + S2000x512.size a ≤ S2000x512.size a
  h_S2000x512 : 0 < S2000x512.numel
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  shapeCasts_S512_S1x512 : S512.ShapeCasts S1x512
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x512_S512x512_0_0 : ∀ a, (![0, 0] : Fin 2 → Nat) a + S512x512.size a ≤ S512x512.size a
  h_S512x512 : 0 < S512x512.numel
  bcast_S50000_S50000x1_0 : S50000.BroadcastsInDim S50000x1 (![0] : Fin 1 → Fin S50000x1.rank)
  slices_S2x50000_S1x50000_0_0 : S2x50000.Slices ![0, 0] S1x50000
  shapeCasts_S1x50000_S50000 : S1x50000.ShapeCasts S50000
  slices_S2x50000_S1x50000_1_0 : S2x50000.Slices ![1, 0] S1x50000
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S2000x128_S128x512_S2000x512_1_0_0_1_n_n_wf : DotDims.WF S2000x128 S128x512 S2000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  dot_S2000x512_S512x512_S2000x512_1_0_0_1_n_n_wf : DotDims.WF S2000x512 S512x512 S2000x512 [1] [0] [0] [1] [] []
  gather_S2x400000_S50000x1_S2x50000_0_1_n_n_1_1_21_wf : GatherDims.WF S2x400000 S50000x1 S2x50000 [0] [1] [] [1] [] 1 ![2, 1]
  gather_S50000x512_S50000x1_S50000x512_1_0_n_n_0_1_1512_wf : GatherDims.WF S50000x512 S50000x1 S50000x512 [1] [0] [] [0] [] 1 ![1, 512]
  dot_S50000x512_S512x1_S50000x1_1_0_0_1_n_n_wf : DotDims.WF S50000x512 S512x1 S50000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S50000x512.size a
  hwx1_2 : ∀ i : grid1.Coords, EltTy.bits .f32 = 32 ∨ (Rect.block (s := S50000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x512.size a ≤ S50000x512.size a
  hwx2_2 : ∀ i : grid2.Coords, EltTy.bits .f32 = 32 ∨ (Rect.block (s := S50000x512) S2000x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S50000x512.size a
  hwx3_0 : ∀ i : grid3.Coords, EltTy.bits .f32 = 32 ∨ (Rect.block (s := S50000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x512.size a ≤ S1x512.size a
  hwx3_1 : ∀ i : grid3.Coords, EltTy.bits .f32 = 32 ∨ (Rect.block (s := S1x512) S1x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x512.size a ≤ S50000x512.size a
  hwx3_2 : ∀ i : grid3.Coords, EltTy.bits .f32 = 32 ∨ (Rect.block (s := S50000x512) S2000x512.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S50000x512.size a
  hwx4_0 : ∀ i : grid4.Coords, EltTy.bits .f32 = 32 ∨ (Rect.block (s := S50000x512) S2000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x512.size a ≤ S50000x512.size a
  hwx4_2 : ∀ i : grid4.Coords, EltTy.bits .f32 = 32 ∨ (Rect.block (s := S50000x512) S2000x512.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S50000x512.size a
  hwx5_0 : ∀ i : grid5.Coords, EltTy.bits .f32 = 32 ∨ (Rect.block (s := S50000x512) S2000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x512.size a ≤ S1x512.size a
  hwx5_1 : ∀ i : grid5.Coords, EltTy.bits .f32 = 32 ∨ (Rect.block (s := S1x512) S1x512.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x512.size a ≤ S50000x512.size a
  hwx5_2 : ∀ i : grid5.Coords, EltTy.bits .f32 = 32 ∨ (Rect.block (s := S50000x512) S2000x512.size (cc5_transform_2 i) (hinb5_2 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S2x400000_S50000x1_S2x50000_0_1_n_n_1_1_21 : GatherDims S2x400000 S50000x1 S2x50000 where
  offsetDims := [0]
  collapsedSliceDims := [1]
  operandBatchingDims := []
  startIndicesBatchingDims := []
  startIndexMap := [1]
  indexVectorDim := 1
  sliceSizes := ![2, 1]
  wf := gather_S2x400000_S50000x1_S2x50000_0_1_n_n_1_1_21_wf
def gather_S50000x512_S50000x1_S50000x512_1_0_n_n_0_1_1512 : GatherDims S50000x512 S50000x1 S50000x512 where
  offsetDims := [1]
  collapsedSliceDims := [0]
  operandBatchingDims := []
  startIndicesBatchingDims := []
  startIndexMap := [0]
  indexVectorDim := 1
  sliceSizes := ![1, 512]
  wf := gather_S50000x512_S50000x1_S50000x512_1_0_n_n_0_1_1512_wf
def dot_S50000x512_S512x1_S50000x1_1_0_0_1_n_n : DotDims S50000x512 S512x1 S50000x1 where
  lhsContracting := [1]
  rhsContracting := [0]
  lhsNonContracting := [0]
  rhsNonContracting := [1]
  lhsBatch := []
  rhsBatch := []
  wf := dot_S50000x512_S512x1_S50000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S2000x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S2000x512.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S50000 : Shape := ⟨1, ![50000]⟩
abbrev S128x512 : Shape := ⟨2, ![128, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S1x400000 : Shape := ⟨2, ![1, 400000]⟩
abbrev S400000 : Shape := ⟨1, ![400000]⟩
abbrev S50000x512 : Shape := ⟨2, ![50000, 512]⟩
abbrev S450000 : Shape := ⟨1, ![450000]⟩
abbrev S_ : Shape := ⟨0, ![]⟩
abbrev S450000x1 : Shape := ⟨2, ![450000, 1]⟩
abbrev S450000x512 : Shape := ⟨2, ![450000, 512]⟩
abbrev S1x512 : Shape := ⟨2, ![1, 512]⟩
abbrev S50000x1 : Shape := ⟨2, ![50000, 1]⟩
abbrev S2x50000 : Shape := ⟨2, ![2, 50000]⟩
abbrev S1x50000 : Shape := ⟨2, ![1, 50000]⟩
abbrev S1x1 : Shape := ⟨2, ![1, 1]⟩

abbrev nBuf : Space → Nat
  | .hbm => 222
  | .vmem => 0
  | .smem => 0
  | _ => 0

abbrev hbmTy0_0 (i : Nat) : BufTy := match i % 128 with
  | 0 => ⟨S50000x128, .f32⟩
  | 1 => ⟨S2x400000, .i32⟩
  | 2 => ⟨S50000, .i32⟩
  | 3 => ⟨S128x512, .f32⟩
  | 4 => ⟨S512, .f32⟩
  | 5 => ⟨S512x512, .f32⟩
  | 6 => ⟨S512, .f32⟩
  | 7 => ⟨S512x512, .f32⟩
  | 8 => ⟨S512, .f32⟩
  | 9 => ⟨S512x1, .f32⟩
  | 10 => ⟨S1, .f32⟩
  | 11 => ⟨S1x400000, .i32⟩
  | 12 => ⟨S400000, .i32⟩
  | 13 => ⟨S1x400000, .i32⟩
  | 14 => ⟨S400000, .i32⟩
  | 15 => ⟨S50000x512, .f32⟩
  | 16 => ⟨S50000, .i32⟩
  | 17 => ⟨S450000, .i32⟩
  | 18 => ⟨S450000, .i32⟩
  | 19 => ⟨S_, .f32⟩
  | 20 => ⟨S450000, .f32⟩
  | 21 => ⟨S_, .f32⟩
  | 22 => ⟨S50000, .f32⟩
  | 23 => ⟨S450000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S450000, .i32⟩
  | 35 => ⟨S450000, .i1⟩
  | 36 => ⟨S_, .i32⟩
  | 37 => ⟨S450000, .i32⟩
  | 38 => ⟨S450000, .i32⟩
  | 39 => ⟨S450000, .i32⟩
  | 40 => ⟨S450000x1, .i32⟩
  | 41 => ⟨S450000, .f32⟩
  | 42 => ⟨S_, .i32⟩
  | 43 => ⟨S450000, .i32⟩
  | 44 => ⟨S450000, .i1⟩
  | 45 => ⟨S_, .i32⟩
  | 46 => ⟨S450000, .i32⟩
  | 47 => ⟨S450000, .i32⟩
  | 48 => ⟨S450000, .i32⟩
  | 49 => ⟨S450000x1, .i32⟩
  | 50 => ⟨S450000, .f32⟩
  | 51 => ⟨S450000, .f32⟩
  | 52 => ⟨S_, .i32⟩
  | 53 => ⟨S450000, .i32⟩
  | 54 => ⟨S450000, .i1⟩
  | 55 => ⟨S_, .i32⟩
  | 56 => ⟨S450000, .i32⟩
  | 57 => ⟨S450000, .i32⟩
  | 58 => ⟨S450000, .i32⟩
  | 59 => ⟨S450000x1, .i32⟩
  | 60 => ⟨S450000x512, .f32⟩
  | 61 => ⟨S450000x1, .f32⟩
  | 62 => ⟨S450000x512, .f32⟩
  | 63 => ⟨S450000x512, .f32⟩
  | 64 => ⟨S_, .f32⟩
  | 65 => ⟨S50000x512, .f32⟩
  | 66 => ⟨S450000x1, .i32⟩
  | 67 => ⟨S50000x512, .f32⟩
  | 68 => ⟨S1x512, .f32⟩
  | 69 => ⟨S50000x512, .f32⟩
  | 70 => ⟨S50000x512, .f32⟩
  | 71 => ⟨S50000x512, .f32⟩
  | 72 => ⟨S50000x512, .f32⟩
  | 73 => ⟨S50000, .i32⟩
  | 74 => ⟨S450000, .i32⟩
  | 75 => ⟨S450000, .i32⟩
  | 76 => ⟨S_, .f32⟩
  | 77 => ⟨S450000, .f32⟩
  | 78 => ⟨S_, .f32⟩
  | 79 => ⟨S50000, .f32⟩
  | 80 => ⟨S450000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S450000, .i32⟩
  | 92 => ⟨S450000, .i1⟩
  | 93 => ⟨S_, .i32⟩
  | 94 => ⟨S450000, .i32⟩
  | 95 => ⟨S450000, .i32⟩
  | 96 => ⟨S450000, .i32⟩
  | 97 => ⟨S450000x1, .i32⟩
  | 98 => ⟨S450000, .f32⟩
  | 99 => ⟨S_, .i32⟩
  | 100 => ⟨S450000, .i32⟩
  | 101 => ⟨S450000, .i1⟩
  | 102 => ⟨S_, .i32⟩
  | 103 => ⟨S450000, .i32⟩
  | 104 => ⟨S450000, .i32⟩
  | 105 => ⟨S450000, .i32⟩
  | 106 => ⟨S450000x1, .i32⟩
  | 107 => ⟨S450000, .f32⟩
  | 108 => ⟨S450000, .f32⟩
  | 109 => ⟨S_, .i32⟩
  | 110 => ⟨S450000, .i32⟩
  | 111 => ⟨S450000, .i1⟩
  | 112 => ⟨S_, .i32⟩
  | 113 => ⟨S450000, .i32⟩
  | 114 => ⟨S450000, .i32⟩
  | 115 => ⟨S450000, .i32⟩
  | 116 => ⟨S450000x1, .i32⟩
  | 117 => ⟨S450000x512, .f32⟩
  | 118 => ⟨S450000x1, .f32⟩
  | 119 => ⟨S450000x512, .f32⟩
  | 120 => ⟨S450000x512, .f32⟩
  | 121 => ⟨S_, .f32⟩
  | 122 => ⟨S50000x512, .f32⟩
  | 123 => ⟨S450000x1, .i32⟩
  | 124 => ⟨S50000x512, .f32⟩
  | 125 => ⟨S1x512, .f32⟩
  | 126 => ⟨S50000x512, .f32⟩
  | 127 => ⟨S50000x512, .f32⟩
  | _ => ⟨S50000x128, .f32⟩

abbrev hbmTy0_1 (i : Nat) : BufTy := match i % 128 with
  | 0 => ⟨S50000x512, .f32⟩
  | 1 => ⟨S50000x512, .f32⟩
  | 2 => ⟨S50000, .i32⟩
  | 3 => ⟨S450000, .i32⟩
  | 4 => ⟨S450000, .i32⟩
  | 5 => ⟨S_, .f32⟩
  | 6 => ⟨S450000, .f32⟩
  | 7 => ⟨S_, .f32⟩
  | 8 => ⟨S50000, .f32⟩
  | 9 => ⟨S450000x1, .i32⟩
  | 10 => ⟨S50000, .f32⟩
  | 11 => ⟨S_, .f32⟩
  | 12 => ⟨S50000, .f32⟩
  | 13 => ⟨S50000, .i1⟩
  | 14 => ⟨S50000, .f32⟩
  | 15 => ⟨S_, .f32⟩
  | 16 => ⟨S_, .f32⟩
  | 17 => ⟨S50000, .f32⟩
  | 18 => ⟨S50000, .f32⟩
  | 19 => ⟨S_, .i32⟩
  | 20 => ⟨S450000, .i32⟩
  | 21 => ⟨S450000, .i1⟩
  | 22 => ⟨S_, .i32⟩
  | 23 => ⟨S450000, .i32⟩
  | 24 => ⟨S450000, .i32⟩
  | 25 => ⟨S450000, .i32⟩
  | 26 => ⟨S450000x1, .i32⟩
  | 27 => ⟨S450000, .f32⟩
  | 28 => ⟨S_, .i32⟩
  | 29 => ⟨S450000, .i32⟩
  | 30 => ⟨S450000, .i1⟩
  | 31 => ⟨S_, .i32⟩
  | 32 => ⟨S450000, .i32⟩
  | 33 => ⟨S450000, .i32⟩
  | 34 => ⟨S450000, .i32⟩
  | 35 => ⟨S450000x1, .i32⟩
  | 36 => ⟨S450000, .f32⟩
  | 37 => ⟨S450000, .f32⟩
  | 38 => ⟨S_, .i32⟩
  | 39 => ⟨S450000, .i32⟩
  | 40 => ⟨S450000, .i1⟩
  | 41 => ⟨S_, .i32⟩
  | 42 => ⟨S450000, .i32⟩
  | 43 => ⟨S450000, .i32⟩
  | 44 => ⟨S450000, .i32⟩
  | 45 => ⟨S450000x1, .i32⟩
  | 46 => ⟨S450000x512, .f32⟩
  | 47 => ⟨S450000x1, .f32⟩
  | 48 => ⟨S450000x512, .f32⟩
  | 49 => ⟨S450000x512, .f32⟩
  | 50 => ⟨S_, .f32⟩
  | 51 => ⟨S50000x512, .f32⟩
  | 52 => ⟨S450000x1, .i32⟩
  | 53 => ⟨S50000x512, .f32⟩
  | 54 => ⟨S1x512, .f32⟩
  | 55 => ⟨S50000x512, .f32⟩
  | 56 => ⟨S50000x512, .f32⟩
  | 57 => ⟨S50000x512, .f32⟩
  | 58 => ⟨S_, .i32⟩
  | 59 => ⟨S50000, .i32⟩
  | 60 => ⟨S50000, .i1⟩
  | 61 => ⟨S_, .i32⟩
  | 62 => ⟨S50000, .i32⟩
  | 63 => ⟨S50000, .i32⟩
  | 64 => ⟨S50000, .i32⟩
  | 65 => ⟨S50000x1, .i32⟩
  | 66 => ⟨S2x50000, .i32⟩
  | 67 => ⟨S1x50000, .i32⟩
  | 68 => ⟨S50000, .i32⟩
  | 69 => ⟨S_, .i32⟩
  | 70 => ⟨S50000, .i32⟩
  | 71 => ⟨S50000, .i1⟩
  | 72 => ⟨S_, .i32⟩
  | 73 => ⟨S50000, .i32⟩
  | 74 => ⟨S50000, .i32⟩
  | 75 => ⟨S50000, .i32⟩
  | 76 => ⟨S50000x1, .i32⟩
  | 77 => ⟨S50000x512, .f32⟩
  | 78 => ⟨S1x50000, .i32⟩
  | 79 => ⟨S50000, .i32⟩
  | 80 => ⟨S_, .i32⟩
  | 81 => ⟨S50000, .i32⟩
  | 82 => ⟨S50000, .i1⟩
  | 83 => ⟨S_, .i32⟩
  | 84 => ⟨S50000, .i32⟩
  | 85 => ⟨S50000, .i32⟩
  | 86 => ⟨S50000, .i32⟩
  | 87 => ⟨S50000x1, .i32⟩
  | 88 => ⟨S50000x512, .f32⟩
  | 89 => ⟨S50000x512, .f32⟩
  | 90 => ⟨S50000x1, .f32⟩
  | 91 => ⟨S1x1, .f32⟩
  | 92 => ⟨S50000x1, .f32⟩
  | 93 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call1_v0 : Ref sig .tc := ⟨.hbm, 87, rfl⟩
abbrev main_call1_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_20 : Ref sig .tc := ⟨.hbm, 133, rfl⟩
abbrev main_v96 : Ref sig .tc := ⟨.hbm, 134, rfl⟩
abbrev main_cst_21 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_22 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_23 : Ref sig .tc := ⟨.hbm, 143, rfl⟩
abbrev main_call2_v0 : Ref sig .tc := ⟨.hbm, 144, rfl⟩
abbrev main_call2_v1 : Ref sig .tc := ⟨.hbm, 145, rfl⟩
abbrev main_v103 : Ref sig .tc := ⟨.hbm, 146, rfl⟩
abbrev main_c_24 : Ref sig .tc := ⟨.hbm, 147, rfl⟩
abbrev main_v104 : Ref sig .tc := ⟨.hbm, 148, rfl⟩
abbrev main_v105 : Ref sig .tc := ⟨.hbm, 149, rfl⟩
abbrev main_c_25 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_c_26 : Ref sig .tc := ⟨.hbm, 156, rfl⟩
abbrev main_v111 : Ref sig .tc := ⟨.hbm, 157, rfl⟩
abbrev main_v112 : Ref sig .tc := ⟨.hbm, 158, rfl⟩
abbrev main_c_27 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_c_28 : Ref sig .tc := ⟨.hbm, 166, rfl⟩
abbrev main_v119 : Ref sig .tc := ⟨.hbm, 167, rfl⟩
abbrev main_v120 : Ref sig .tc := ⟨.hbm, 168, rfl⟩
abbrev main_c_29 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_30 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_c_31 : Ref sig .tc := ⟨.hbm, 186, rfl⟩
abbrev main_v136 : Ref sig .tc := ⟨.hbm, 187, rfl⟩
abbrev main_v137 : Ref sig .tc := ⟨.hbm, 188, rfl⟩
abbrev main_c_32 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_c_33 : Ref sig .tc := ⟨.hbm, 197, rfl⟩
abbrev main_v145 : Ref sig .tc := ⟨.hbm, 198, rfl⟩
abbrev main_v146 : Ref sig .tc := ⟨.hbm, 199, rfl⟩
abbrev main_c_34 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_c_35 : Ref sig .tc := ⟨.hbm, 208, rfl⟩
abbrev main_v154 : Ref sig .tc := ⟨.hbm, 209, rfl⟩
abbrev main_v155 : Ref sig .tc := ⟨.hbm, 210, rfl⟩
abbrev main_c_36 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S50000_S450000_d0 : Shape.Concatenates [S400000, S50000] S450000 0
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S50000_S50000x1_0 : S50000.BroadcastsInDim S50000x1 (![0] : Fin 1 → Fin S50000x1.rank)
  slices_S2x50000_S1x50000_0_0 : S2x50000.Slices ![0, 0] S1x50000
  shapeCasts_S1x50000_S50000 : S1x50000.ShapeCasts S50000
  slices_S2x50000_S1x50000_1_0 : S2x50000.Slices ![1, 0] S1x50000
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x512_S50000x512_1_0_0_1_n_n_wf : DotDims.WF S50000x128 S128x512 S50000x512 [1] [0] [0] [1] [] []
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  dot_S50000x512_S512x512_S50000x512_1_0_0_1_n_n_wf : DotDims.WF S50000x512 S512x512 S50000x512 [1] [0] [0] [1] [] []
  gather_S2x400000_S50000x1_S2x50000_0_1_n_n_1_1_21_wf : GatherDims.WF S2x400000 S50000x1 S2x50000 [0] [1] [] [1] [] 1 ![2, 1]
  gather_S50000x512_S50000x1_S50000x512_1_0_n_n_0_1_1512_wf : GatherDims.WF S50000x512 S50000x1 S50000x512 [1] [0] [] [0] [] 1 ![1, 512]
  dot_S50000x512_S512x1_S50000x1_1_0_0_1_n_n_wf : DotDims.WF S50000x512 S512x1 S50000x1 [1] [0] [0] [1] [] []

variable [Facts₀]

def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S2x400000_S50000x1_S2x50000_0_1_n_n_1_1_21 : GatherDims S2x400000 S50000x1 S2x50000 where
  offsetDims := [0]
  collapsedSliceDims := [1]
  operandBatchingDims := []
  startIndicesBatchingDims := []
  startIndexMap := [1]
  indexVectorDim := 1
  sliceSizes := ![2, 1]
  wf := gather_S2x400000_S50000x1_S2x50000_0_1_n_n_1_1_21_wf
def gather_S50000x512_S50000x1_S50000x512_1_0_n_n_0_1_1512 : GatherDims S50000x512 S50000x1 S50000x512 where
  offsetDims := [1]
  collapsedSliceDims := [0]
  operandBatchingDims := []
  startIndicesBatchingDims := []
  startIndexMap := [0]
  indexVectorDim := 1
  sliceSizes := ![1, 512]
  wf := gather_S50000x512_S50000x1_S50000x512_1_0_n_n_0_1_1512_wf
def dot_S50000x512_S512x1_S50000x1_1_0_0_1_n_n : DotDims S50000x512 S512x1 S50000x1 where
  lhsContracting := [1]
  rhsContracting := [0]
  lhsNonContracting := [0]
  rhsNonContracting := [1]
  lhsBatch := []
  rhsBatch := []
  wf := dot_S50000x512_S512x1_S50000x1_1_0_0_1_n_n_wf

class Facts : Prop extends Facts₀ where

variable [Facts]
-- ==== Proof.KernelRun.lean ====
/-
  The idealized kernel program's run with its result named: every weakly fair execution of @main terminates, nothing
  faulting, the argument arrays end as launched, and the result array ends at the contents the last host stretch leaves
  in it — the fold of @main's thirteen segments (seven stretches of host operations, six pipelines) from the launch memory.
-/
import proofs.«128089_j63290638074050_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the thirteen segments; the last thread state holds every unscoped buffer at the last boundary's contents,
    read here at the result buffer and at the eleven arguments. -/
theorem run_result : θ_run defs (onTc (τ := τ) (main (F := F))) ⟨m, fun _ => 0, ρ⟩ (fun r => ∀ c : Dev nD,
      r.2.mem ((c.tc : Thread nD τ).loc main_v107) = W13 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v107 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.RunValue

end
-- ==== Proof.Spec.lean ====
/-
  The two dense stages of a graph-convolution layer as whole-array functions, at exact arithmetic.

  `dense128 X W` and `dense512 X W` are the matrix products X · W of a 50000-row feature matrix with a weight matrix,
  entry (r, q) the sum over k of X (r, k) · W (k, q). `biasTanh A b` adds the bias, given as a one-row matrix, to every
  row of the aggregated messages A and applies tanh entry by entry.
-/
import proofs.«128089_j63290638074050_1_alg».proof.KernelIdeal
import Idealize.ShloMosaic.Lib.ValueIdx
import Idealize.ShloMosaic.PureOps.Ideal

noncomputable section

namespace Cert.Layer

open Cert.KernelIdeal Idealize.ShloMosaic Idealize.ShloMosaic.ValueIdx

/-- X · W for the first layer: 50000×128 by 128×512. -/
def dense128 (X : FVec Ideal S50000x128 .f32) (W : FVec Ideal S128x512 .f32) : FVec Ideal S50000x512 .f32 :=
  fun i => ∑ k : Fin 128, X (ix2 (⟨(i 0).val, idx2_lt0 i⟩ : Fin 50000) k) * W (ix2 k (⟨(i 1).val, idx2_lt1 i⟩ : Fin 512))

/-- X · W for the second and third layers: 50000×512 by 512×512. -/
def dense512 (X : FVec Ideal S50000x512 .f32) (W : FVec Ideal S512x512 .f32) : FVec Ideal S50000x512 .f32 :=
  fun i => ∑ k : Fin 512, X (ix2 (⟨(i 0).val, idx2_lt0 i⟩ : Fin 50000) k) * W (ix2 k (⟨(i 1).val, idx2_lt1 i⟩ : Fin 512))

/-- tanh (A + bias row), entry by entry. -/
def biasTanh (A : FVec Ideal S50000x512 .f32) (b : FVec Ideal S1x512 .f32) : FVec Ideal S50000x512 .f32 :=
  fun i => Ideal.tanh (A i + b (ix2 (0 : Fin 1) (⟨(i 1).val, idx2_lt1 i⟩ : Fin 512)))

end Cert.Layer

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.Entries.lean ====
/-
  The two kernel bodies of the graph-convolution layers, read at one entry, at exact arithmetic.

  The dense body loads a 2000-row block of the layer's input and the whole weight matrix, rounds both to bfloat16 (at
  exact arithmetic a change of format does nothing) and multiplies them into a zero accumulator: its entry (p, q) is the
  sum over k of block (p, k) · weight (k, q). The epilogue body loads a 2000-row block of the aggregated messages and
  the bias as a one-row matrix, and stores tanh (block + bias row), entry by entry.
-/
import proofs.«128089_j63290638074050_1_alg».proof.Proof.Gen.KernelIdeal.Skeleton
import proofs.«128089_j63290638074050_1_alg».proof.Proof.LibDotEntry
import Idealize.ShloMosaic.Lib.ValueIdx
import Idealize.ShloMosaic.Lib.Pipeline.Value
import Idealize.ShloMosaic.PureOps.Ideal.Laws

noncomputable section

namespace Cert.KernelIdeal.Entries

open Cert.KernelIdeal Cert.KernelIdeal.Gen Idealize.ShloMosaic Idealize.ShloMosaic.TcCoe Idealize.SL.Sem Idealize.ShloMosaic.ValueIdx

/-! ## Where the block products' dimension numbers send an output index and a contraction index -/

theorem d128_l0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem d128_l1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
theorem d128_r0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
theorem d128_r1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

theorem d512_l0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem d512_l1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem d512_r0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem d512_r1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-! ## The dense bodies at an entry -/

/-- First layer: a 2000×128 block times the 128×512 weights. -/
theorem dense0_entry (x0 : Vec Ideal S2000x128 .f32) (x1 : Vec Ideal S128x512 .f32) (p : Fin 2000) (q : Fin 512) :
    k0_pay1 x0 x1 (ix2 p q) = ∑ k : Fin 128, x0 (ix2 p k) * x1 (ix2 k q) := by
  unfold k0_pay1
  exact Cert.Lib.DotEntry.matmul_zero_ix2 dot_S2000x128_S128x512_S2000x512_1_0_0_1_n_n rfl rfl d128_l0 d128_l1 d128_r0 d128_r1
    (truncf .bf16 x0 bitsLt_bf16_f32) (truncf .bf16 x1 bitsLt_bf16_f32) p q

/-- Second layer: a 2000×512 block times the 512×512 weights. -/
theorem dense2_entry (x0 : Vec Ideal S2000x512 .f32) (x1 : Vec Ideal S512x512 .f32) (p : Fin 2000) (q : Fin 512) :
    k2_pay1 x0 x1 (ix2 p q) = ∑ k : Fin 512, x0 (ix2 p k) * x1 (ix2 k q) := by
  unfold k2_pay1
  rw [shapeCast_self]
  exact Cert.Lib.DotEntry.matmul_zero_ix2 dot_S2000x512_S512x512_S2000x512_1_0_0_1_n_n rfl rfl d512_l0 d512_l1 d512_r0 d512_r1
    (truncf .bf16 x0 bitsLt_bf16_f32) (truncf .bf16 x1 bitsLt_bf16_f32) p q

/-- Third layer: the same body as the second. -/
theorem dense4_entry (x0 : Vec Ideal S2000x512 .f32) (x1 : Vec Ideal S512x512 .f32) (p : Fin 2000) (q : Fin 512) :
    k4_pay1 x0 x1 (ix2 p q) = ∑ k : Fin 512, x0 (ix2 p k) * x1 (ix2 k q) := by
  unfold k4_pay1
  rw [shapeCast_self]
  exact Cert.Lib.DotEntry.matmul_zero_ix2 dot_S2000x512_S512x512_S2000x512_1_0_0_1_n_n rfl rfl d512_l0 d512_l1 d512_r0 d512_r1
    (truncf .bf16 x0 bitsLt_bf16_f32) (truncf .bf16 x1 bitsLt_bf16_f32) p q

/-! ## The epilogue bodies at an entry -/

/-- The bias row broadcast down the block's rows, read at (p, q), is the row's entry q. -/
theorem biasRow_entry (x1 : Vec Ideal S1x512 .f32) (p : Fin 2000) (q : Fin 512) :
    broadcastTo S2000x512 x1 broadcasts_S1x512_S2000x512 (ix2 p q) = x1 (ix2 0 q) :=
  broadcastTo_apply x1 broadcasts_S1x512_S2000x512 (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

theorem epi1_entry (x0 : Vec Ideal S2000x512 .f32) (x1 : Vec Ideal S1x512 .f32) (p : Fin 2000) (q : Fin 512) :
    k1_pay1 x0 x1 (ix2 p q) = Ideal.tanh (x0 (ix2 p q) + x1 (ix2 0 q)) := by
  unfold k1_pay1
  rw [shapeCast_self, shapeCast_self]
  show Ideal.tanh (x0 (ix2 p q) + broadcastTo S2000x512 x1 broadcasts_S1x512_S2000x512 (ix2 p q)) = _
  rw [biasRow_entry]

theorem epi3_entry (x0 : Vec Ideal S2000x512 .f32) (x1 : Vec Ideal S1x512 .f32) (p : Fin 2000) (q : Fin 512) :
    k3_pay1 x0 x1 (ix2 p q) = Ideal.tanh (x0 (ix2 p q) + x1 (ix2 0 q)) := by
  unfold k3_pay1
  rw [shapeCast_self, shapeCast_self]
  show Ideal.tanh (x0 (ix2 p q) + broadcastTo S2000x512 x1 broadcasts_S1x512_S2000x512 (ix2 p q)) = _
  rw [biasRow_entry]

theorem epi5_entry (x0 : Vec Ideal S2000x512 .f32) (x1 : Vec Ideal S1x512 .f32) (p : Fin 2000) (q : Fin 512) :
    k5_pay1 x0 x1 (ix2 p q) = Ideal.tanh (x0 (ix2 p q) + x1 (ix2 0 q)) := by
  unfold k5_pay1
  rw [shapeCast_self, shapeCast_self]
  show Ideal.tanh (x0 (ix2 p q) + broadcastTo S2000x512 x1 broadcasts_S1x512_S2000x512 (ix2 p q)) = _
  rw [biasRow_entry]

end Cert.KernelIdeal.Entries

end
-- ==== Proof.Blocks.lean ====
/-
  A block of a layer's dense stage is the kernel body's product, and a block of its epilogue is the body's tanh.

  A grid point of the dense kernel holds 2000 consecutive rows of the input matrix and the whole weight matrix; what it
  stores at (p, q) is row p of the block against column q of the weights, which is entry (r, q) of the whole product when
  the block's row p is the matrix's row r. The epilogue kernel is entrywise, with the bias row shared by every block.
-/
import proofs.«128089_j63290638074050_1_alg».proof.Proof.Spec
import proofs.«128089_j63290638074050_1_alg».proof.Proof.Entries

noncomputable section

namespace Cert.KernelIdeal.Blocks

open Cert.KernelIdeal Cert.KernelIdeal.Gen Cert.KernelIdeal.Entries Cert.Layer Idealize.ShloMosaic Idealize.ShloMosaic.TcCoe Idealize.SL.Sem Idealize.ShloMosaic.ValueIdx

theorem dense0_block (x0 : Vec Ideal S2000x128 .f32) (x1 : Vec Ideal S128x512 .f32)
    (X : FVec Ideal S50000x128 .f32) (W : FVec Ideal S128x512 .f32) (j : S2000x512.Idx) (i : S50000x512.Idx)
    (h0 : ∀ k : Fin 128, x0 (ix2 (⟨(j 0).val, idx2_lt0 j⟩ : Fin 2000) k) = X (ix2 (⟨(i 0).val, idx2_lt0 i⟩ : Fin 50000) k))
    (h1 : ∀ k : Fin 128, x1 (ix2 k (⟨(j 1).val, idx2_lt1 j⟩ : Fin 512)) = W (ix2 k (⟨(i 1).val, idx2_lt1 i⟩ : Fin 512))) :
    k0_pay1 x0 x1 j = dense128 X W i := by
  have hj : j = ix2 (⟨(j 0).val, idx2_lt0 j⟩ : Fin 2000) (⟨(j 1).val, idx2_lt1 j⟩ : Fin 512) := eq_ix2 j
  rw [hj, dense0_entry]
  unfold dense128
  exact Finset.sum_congr rfl fun k _ => by rw [h0 k, h1 k]

theorem dense2_block (x0 : Vec Ideal S2000x512 .f32) (x1 : Vec Ideal S512x512 .f32)
    (X : FVec Ideal S50000x512 .f32) (W : FVec Ideal S512x512 .f32) (j : S2000x512.Idx) (i : S50000x512.Idx)
    (h0 : ∀ k : Fin 512, x0 (ix2 (⟨(j 0).val, idx2_lt0 j⟩ : Fin 2000) k) = X (ix2 (⟨(i 0).val, idx2_lt0 i⟩ : Fin 50000) k))
    (h1 : ∀ k : Fin 512, x1 (ix2 k (⟨(j 1).val, idx2_lt1 j⟩ : Fin 512)) = W (ix2 k (⟨(i 1).val, idx2_lt1 i⟩ : Fin 512))) :
    k2_pay1 x0 x1 j = dense512 X W i := by
  have hj : j = ix2 (⟨(j 0).val, idx2_lt0 j⟩ : Fin 2000) (⟨(j 1).val, idx2_lt1 j⟩ : Fin 512) := eq_ix2 j
  rw [hj, dense2_entry]
  unfold dense512
  exact Finset.sum_congr rfl fun k _ => by rw [h0 k, h1 k]

theorem dense4_block (x0 : Vec Ideal S2000x512 .f32) (x1 : Vec Ideal S512x512 .f32)
    (X : FVec Ideal S50000x512 .f32) (W : FVec Ideal S512x512 .f32) (j : S2000x512.Idx) (i : S50000x512.Idx)
    (h0 : ∀ k : Fin 512, x0 (ix2 (⟨(j 0).val, idx2_lt0 j⟩ : Fin 2000) k) = X (ix2 (⟨(i 0).val, idx2_lt0 i⟩ : Fin 50000) k))
    (h1 : ∀ k : Fin 512, x1 (ix2 k (⟨(j 1).val, idx2_lt1 j⟩ : Fin 512)) = W (ix2 k (⟨(i 1).val, idx2_lt1 i⟩ : Fin 512))) :
    k4_pay1 x0 x1 j = dense512 X W i := by
  have hj : j = ix2 (⟨(j 0).val, idx2_lt0 j⟩ : Fin 2000) (⟨(j 1).val, idx2_lt1 j⟩ : Fin 512) := eq_ix2 j
  rw [hj, dense4_entry]
  unfold dense512
  exact Finset.sum_congr rfl fun k _ => by rw [h0 k, h1 k]

theorem epi1_block (x0 : Vec Ideal S2000x512 .f32) (x1 : Vec Ideal S1x512 .f32)
    (A : FVec Ideal S50000x512 .f32) (b : FVec Ideal S1x512 .f32) (j : S2000x512.Idx) (i : S50000x512.Idx)
    (h0 : x0 j = A i)
    (h1 : x1 (ix2 (0 : Fin 1) (⟨(j 1).val, idx2_lt1 j⟩ : Fin 512)) = b (ix2 (0 : Fin 1) (⟨(i 1).val, idx2_lt1 i⟩ : Fin 512))) :
    k1_pay1 x0 x1 j = biasTanh A b i := by
  have hj : j = ix2 (⟨(j 0).val, idx2_lt0 j⟩ : Fin 2000) (⟨(j 1).val, idx2_lt1 j⟩ : Fin 512) := eq_ix2 j
  rw [hj, epi1_entry, ← hj, h0, h1]
  rfl

theorem epi3_block (x0 : Vec Ideal S2000x512 .f32) (x1 : Vec Ideal S1x512 .f32)
    (A : FVec Ideal S50000x512 .f32) (b : FVec Ideal S1x512 .f32) (j : S2000x512.Idx) (i : S50000x512.Idx)
    (h0 : x0 j = A i)
    (h1 : x1 (ix2 (0 : Fin 1) (⟨(j 1).val, idx2_lt1 j⟩ : Fin 512)) = b (ix2 (0 : Fin 1) (⟨(i 1).val, idx2_lt1 i⟩ : Fin 512))) :
    k3_pay1 x0 x1 j = biasTanh A b i := by
  have hj : j = ix2 (⟨(j 0).val, idx2_lt0 j⟩ : Fin 2000) (⟨(j 1).val, idx2_lt1 j⟩ : Fin 512) := eq_ix2 j
  rw [hj, epi3_entry, ← hj, h0, h1]
  rfl

theorem epi5_block (x0 : Vec Ideal S2000x512 .f32) (x1 : Vec Ideal S1x512 .f32)
    (A : FVec Ideal S50000x512 .f32) (b : FVec Ideal S1x512 .f32) (j : S2000x512.Idx) (i : S50000x512.Idx)
    (h0 : x0 j = A i)
    (h1 : x1 (ix2 (0 : Fin 1) (⟨(j 1).val, idx2_lt1 j⟩ : Fin 512)) = b (ix2 (0 : Fin 1) (⟨(i 1).val, idx2_lt1 i⟩ : Fin 512))) :
    k5_pay1 x0 x1 j = biasTanh A b i := by
  have hj : j = ix2 (⟨(j 0).val, idx2_lt0 j⟩ : Fin 2000) (⟨(j 1).val, idx2_lt1 j⟩ : Fin 512) := eq_ix2 j
  rw [hj, epi5_entry, ← hj, h0, h1]
  rfl

end Cert.KernelIdeal.Blocks

end
-- ==== Proof.Region0.lean ====
/-
  The first layer's dense kernel computes the whole matrix product, block row by block row.

  The pipeline's grid has 25 points; point t stages rows 2000·t … 2000·t + 1999 of the input matrix and the whole weight
  matrix, and writes back the same rows of the product. What point t writes back is therefore block t of the whole
  product X · W, and the 25 blocks tile the 50000 rows: after the pipeline the output array holds X · W, whatever the
  contents V the region was entered with.
-/
import proofs.«128089_j63290638074050_1_alg».proof.Proof.Gen.KernelIdeal.Frame
import proofs.«128089_j63290638074050_1_alg».proof.Proof.Blocks
import Idealize.ShloMosaic.Lib.Pipeline.Value

set_option maxRecDepth 16384

noncomputable section

namespace Cert.KernelIdeal.Region0

open Cert.KernelIdeal Cert.KernelIdeal.Gen Cert.KernelIdeal.Blocks Cert.Layer
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input block and the output block of point t are both block row t; the weight matrix
    is one block. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every block row is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- What point t writes back is block t of the whole product. -/
theorem flushed_eq (c : Dev nD) (t : Fin cfg0.N) :
    (dat0 (F := Ideal) V c).flushed 2 t
      = ((cfg0.win 2).blk t).view.read (Elt Ideal) (dense128 (V c main_arg0) (V c main_arg3)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x512) hz]
  obtain ⟨e0, e1, e2, e3, e4, e5⟩ := idx_facts t
  funext j
  show k0_pay1 (iblk0 V c 0 t) (iblk0 V c 1 t) j = dense128 (V c main_arg0) (V c main_arg3) (((cfg0.win 2).blk t).view.emb j)
  have hj0 : (j 0).val < 2000 := (j 0).isLt
  have hj1 : (j 1).val < 512 := (j 1).isLt
  refine dense0_block (iblk0 V c 0 t) (iblk0 V c 1 t) (V c main_arg0) (V c main_arg3) j (((cfg0.win 2).blk t).view.emb j) ?_ ?_
  · intro k
    show V c main_arg0 (((cfg0.win 0).blk t).view.emb (ix2 (⟨(j 0).val, idx2_lt0 j⟩ : Fin 2000) k)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · intro k
    show V c main_arg3 (((cfg0.win 1).blk t).view.emb (ix2 k (⟨(j 1).val, idx2_lt1 j⟩ : Fin 512))) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 512 + 1 * (j 1).val = win0_2.index t (1 : Fin 2) * 512 + 1 * (j 1).val; omega

/-- An index of the output array is in point t's block iff each coordinate is in the block's range on its axis. -/
theorem mem_blk (t : Fin cfg0.N) (i : S50000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v30).slice (win0_2.rect t)).set ↔ _
  rw [View.set_slice_whole, Rect.mem_set_unit]
  exact Iff.rfl

/-- The 25 blocks tile the output array: row r lies in the block of the point whose block row is r / 2000. -/
theorem cover (i : S50000x512.Idx) :
    ∃ t : Fin cfg0.N, (cfg0.win 2).flush t = true ∧ i ∈ ((cfg0.win 2).blk t).view.set := by
  have hi0 : (i 0).val < 50000 := (i 0).isLt
  have hi1 : (i 1).val < 512 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- After the pipeline the output array holds the whole product of the two input arrays as the region found them. -/
theorem arr (c : Dev nD) :
    (dat0 (F := Ideal) V c).arrAt 2 cfg0.N = dense128 (V c main_arg0) (V c main_arg3) :=
  (dat0 (F := Ideal) V c).arrAt_eq_of_cover 2 (dense128 (V c main_arg0) (V c main_arg3)) (fun t _ => flushed_eq V c t) cover

end Cert.KernelIdeal.Region0

end
-- ==== Proof.Region1.lean ====
/-
  The first layer's epilogue kernel computes tanh (aggregated messages + bias) on the whole array, block row by block row.

  The pipeline's grid has 25 points; point t stages rows 2000·t … 2000·t + 1999 of the aggregated messages and the bias
  row, and writes back tanh (messages + bias) on the same rows. What point t writes back is block t of the whole-array
  function, and the 25 blocks tile the 50000 rows: after the pipeline the output array holds tanh (A + bias row), whatever
  the contents V the region was entered with.
-/
import proofs.«128089_j63290638074050_1_alg».proof.Proof.Gen.KernelIdeal.Frame
import proofs.«128089_j63290638074050_1_alg».proof.Proof.Blocks
import Idealize.ShloMosaic.Lib.Pipeline.Value

set_option maxRecDepth 16384

noncomputable section

namespace Cert.KernelIdeal.Region1

open Cert.KernelIdeal Cert.KernelIdeal.Gen Cert.KernelIdeal.Blocks Cert.Layer
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input block and the output block of point t are both block row t; the bias row is
    one block. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 24 :=
  (by decide +kernel : ∀ t : Fin grid1.N, _)

/-- Every block row is some point's. -/
theorem idx_onto : ∀ q0 : Fin 25, ∃ t : Fin cfg1.N, win1_2.index t = ![q0.val, 0] :=
  (by decide +kernel : ∀ q0 : Fin 25, ∃ t : Fin grid1.N, win1_2.index t = ![q0.val, 0])

/-- What point t writes back is block t of tanh (A + bias row). -/
theorem flushed_eq (c : Dev nD) (t : Fin cfg1.N) :
    (dat1 (F := Ideal) V c).flushed 2 t
      = ((cfg1.win 2).blk t).view.read (Elt Ideal) (biasTanh (V c main_v43) (V c main_v44)) := by
  show (cfg1.win 2).cut (grid1.coords t) ((dat1 V c).after 2 t) = _
  rw [after1_2]
  unfold out1_2
  rw [View.canon_unit_zero hz]
  simp only [View.ld_unit_zero (S := S2000x512) hz, View.ld_unit_zero (S := S1x512) hz]
  obtain ⟨e0, e1, e2, e3, e4, e5⟩ := idx_facts t
  funext j
  show k1_pay1 (iblk1 V c 0 t) (iblk1 V c 1 t) j = biasTanh (V c main_v43) (V c main_v44) (((cfg1.win 2).blk t).view.emb j)
  have hj0 : (j 0).val < 2000 := (j 0).isLt
  have hj1 : (j 1).val < 512 := (j 1).isLt
  refine epi1_block (iblk1 V c 0 t) (iblk1 V c 1 t) (V c main_v43) (V c main_v44) j (((cfg1.win 2).blk t).view.emb j) ?_ ?_
  · show V c main_v43 (((cfg1.win 0).blk t).view.emb j) = _
    refine congrArg (V c main_v43) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 512 + 1 * (j 1).val = win1_2.index t (1 : Fin 2) * 512 + 1 * (j 1).val; omega
  · show V c main_v44 (((cfg1.win 1).blk t).view.emb (ix2 (0 : Fin 1) (⟨(j 1).val, idx2_lt1 j⟩ : Fin 512))) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 512 + 1 * (j 1).val = win1_2.index t (1 : Fin 2) * 512 + 1 * (j 1).val; omega

/-- An index of the output array is in point t's block iff each coordinate is in the block's range on its axis. -/
theorem mem_blk (t : Fin cfg1.N) (i : S50000x512.Idx) :
    i ∈ ((cfg1.win 2).blk t).view.set ↔ ∀ a : Fin 2, win1_2.index t a * S2000x512.size a ≤ (i a).val ∧ (i a).val < win1_2.index t a * S2000x512.size a + S2000x512.size a := by
  show i ∈ ((View.whole main_v45).slice (win1_2.rect t)).set ↔ _
  rw [View.set_slice_whole, Rect.mem_set_unit]
  exact Iff.rfl

/-- The 25 blocks tile the output array: row r lies in the block of the point whose block row is r / 2000. -/
theorem cover (i : S50000x512.Idx) :
    ∃ t : Fin cfg1.N, (cfg1.win 2).flush t = true ∧ i ∈ ((cfg1.win 2).blk t).view.set := by
  have hi0 : (i 0).val < 50000 := (i 0).isLt
  have hi1 : (i 1).val < 512 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 512 ≤ (i 1).val ∧ (i 1).val < win1_2.index t (1 : Fin 2) * 512 + 512; omega

/-- After the pipeline the output array holds tanh (A + bias row) of the two input arrays as the region found them. -/
theorem arr (c : Dev nD) :
    (dat1 (F := Ideal) V c).arrAt 2 cfg1.N = biasTanh (V c main_v43) (V c main_v44) :=
  (dat1 (F := Ideal) V c).arrAt_eq_of_cover 2 (biasTanh (V c main_v43) (V c main_v44)) (fun t _ => flushed_eq V c t) cover

end Cert.KernelIdeal.Region1

end
-- ==== Proof.Region2.lean ====
/-
  The second layer's dense kernel computes the whole matrix product, block row by block row.

  The pipeline's grid has 25 points; point t stages rows 2000·t … 2000·t + 1999 of the input matrix and the whole weight
  matrix, and writes back the same rows of the product. What point t writes back is therefore block t of the whole
  product X · W, and the 25 blocks tile the 50000 rows: after the pipeline the output array holds X · W, whatever the
  contents V the region was entered with.
-/
import proofs.«128089_j63290638074050_1_alg».proof.Proof.Gen.KernelIdeal.Frame
import proofs.«128089_j63290638074050_1_alg».proof.Proof.Blocks
import Idealize.ShloMosaic.Lib.Pipeline.Value

set_option maxRecDepth 16384

noncomputable section

namespace Cert.KernelIdeal.Region2

open Cert.KernelIdeal Cert.KernelIdeal.Gen Cert.KernelIdeal.Blocks Cert.Layer
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input block and the output block of point t are both block row t; the weight matrix
    is one block. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 24 :=
  (by decide +kernel : ∀ t : Fin grid2.N, _)

/-- Every block row is some point's. -/
theorem idx_onto : ∀ q0 : Fin 25, ∃ t : Fin cfg2.N, win2_2.index t = ![q0.val, 0] :=
  (by decide +kernel : ∀ q0 : Fin 25, ∃ t : Fin grid2.N, win2_2.index t = ![q0.val, 0])

/-- What point t writes back is block t of the whole product. -/
theorem flushed_eq (c : Dev nD) (t : Fin cfg2.N) :
    (dat2 (F := Ideal) V c).flushed 2 t
      = ((cfg2.win 2).blk t).view.read (Elt Ideal) (dense512 (V c main_v45) (V c main_arg5)) := by
  show (cfg2.win 2).cut (grid2.coords t) ((dat2 V c).after 2 t) = _
  rw [after2_2]
  unfold out2_2
  rw [View.canon_unit_zero hz]
  simp only [View.ld_unit_zero (S := S2000x512) hz, View.ld_unit_zero (S := S512x512) hz]
  obtain ⟨e0, e1, e2, e3, e4, e5⟩ := idx_facts t
  funext j
  show k2_pay1 (iblk2 V c 0 t) (iblk2 V c 1 t) j = dense512 (V c main_v45) (V c main_arg5) (((cfg2.win 2).blk t).view.emb j)
  have hj0 : (j 0).val < 2000 := (j 0).isLt
  have hj1 : (j 1).val < 512 := (j 1).isLt
  refine dense2_block (iblk2 V c 0 t) (iblk2 V c 1 t) (V c main_v45) (V c main_arg5) j (((cfg2.win 2).blk t).view.emb j) ?_ ?_
  · intro k
    show V c main_v45 (((cfg2.win 0).blk t).view.emb (ix2 (⟨(j 0).val, idx2_lt0 j⟩ : Fin 2000) k)) = _
    refine congrArg (V c main_v45) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 512 + 1 * k.val = k.val; omega
  · intro k
    show V c main_arg5 (((cfg2.win 1).blk t).view.emb (ix2 k (⟨(j 1).val, idx2_lt1 j⟩ : Fin 512))) = _
    refine congrArg (V c main_arg5) (funext fun a => Fin.ext ?_)
    match a with
    | ⟨0, _⟩ => show win2_1.index t (0 : Fin 2) * 512 + 1 * k.val = k.val; omega
    | ⟨1, _⟩ => show win2_1.index t (1 : Fin 2) * 512 + 1 * (j 1).val = win2_2.index t (1 : Fin 2) * 512 + 1 * (j 1).val; omega

/-- An index of the output array is in point t's block iff each coordinate is in the block's range on its axis. -/
theorem mem_blk (t : Fin cfg2.N) (i : S50000x512.Idx) :
    i ∈ ((cfg2.win 2).blk t).view.set ↔ ∀ a : Fin 2, win2_2.index t a * S2000x512.size a ≤ (i a).val ∧ (i a).val < win2_2.index t a * S2000x512.size a + S2000x512.size a := by
  show i ∈ ((View.whole main_v46).slice (win2_2.rect t)).set ↔ _
  rw [View.set_slice_whole, Rect.mem_set_unit]
  exact Iff.rfl

/-- The 25 blocks tile the output array: row r lies in the block of the point whose block row is r / 2000. -/
theorem cover (i : S50000x512.Idx) :
    ∃ t : Fin cfg2.N, (cfg2.win 2).flush t = true ∧ i ∈ ((cfg2.win 2).blk t).view.set := by
  have hi0 : (i 0).val < 50000 := (i 0).isLt
  have hi1 : (i 1).val < 512 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 512 ≤ (i 1).val ∧ (i 1).val < win2_2.index t (1 : Fin 2) * 512 + 512; omega

/-- After the pipeline the output array holds the whole product of the two input arrays as the region found them. -/
theorem arr (c : Dev nD) :
    (dat2 (F := Ideal) V c).arrAt 2 cfg2.N = dense512 (V c main_v45) (V c main_arg5) :=
  (dat2 (F := Ideal) V c).arrAt_eq_of_cover 2 (dense512 (V c main_v45) (V c main_arg5)) (fun t _ => flushed_eq V c t) cover

end Cert.KernelIdeal.Region2

end
-- ==== Proof.Region3.lean ====
/-
  The second layer's epilogue kernel computes tanh (aggregated messages + bias) on the whole array, block row by block row.

  The pipeline's grid has 25 points; point t stages rows 2000·t … 2000·t + 1999 of the aggregated messages and the bias
  row, and writes back tanh (messages + bias) on the same rows. What point t writes back is block t of the whole-array
  function, and the 25 blocks tile the 50000 rows: after the pipeline the output array holds tanh (A + bias row), whatever
  the contents V the region was entered with.
-/
import proofs.«128089_j63290638074050_1_alg».proof.Proof.Gen.KernelIdeal.Frame
import proofs.«128089_j63290638074050_1_alg».proof.Proof.Blocks
import Idealize.ShloMosaic.Lib.Pipeline.Value

set_option maxRecDepth 16384

noncomputable section

namespace Cert.KernelIdeal.Region3

open Cert.KernelIdeal Cert.KernelIdeal.Gen Cert.KernelIdeal.Blocks Cert.Layer
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input block and the output block of point t are both block row t; the bias row is
    one block. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 24 :=
  (by decide +kernel : ∀ t : Fin grid3.N, _)

/-- Every block row is some point's. -/
theorem idx_onto : ∀ q0 : Fin 25, ∃ t : Fin cfg3.N, win3_2.index t = ![q0.val, 0] :=
  (by decide +kernel : ∀ q0 : Fin 25, ∃ t : Fin grid3.N, win3_2.index t = ![q0.val, 0])

/-- What point t writes back is block t of tanh (A + bias row). -/
theorem flushed_eq (c : Dev nD) (t : Fin cfg3.N) :
    (dat3 (F := Ideal) V c).flushed 2 t
      = ((cfg3.win 2).blk t).view.read (Elt Ideal) (biasTanh (V c main_v59) (V c main_v60)) := by
  show (cfg3.win 2).cut (grid3.coords t) ((dat3 V c).after 2 t) = _
  rw [after3_2]
  unfold out3_2
  rw [View.canon_unit_zero hz]
  simp only [View.ld_unit_zero (S := S2000x512) hz, View.ld_unit_zero (S := S1x512) hz]
  obtain ⟨e0, e1, e2, e3, e4, e5⟩ := idx_facts t
  funext j
  show k3_pay1 (iblk3 V c 0 t) (iblk3 V c 1 t) j = biasTanh (V c main_v59) (V c main_v60) (((cfg3.win 2).blk t).view.emb j)
  have hj0 : (j 0).val < 2000 := (j 0).isLt
  have hj1 : (j 1).val < 512 := (j 1).isLt
  refine epi3_block (iblk3 V c 0 t) (iblk3 V c 1 t) (V c main_v59) (V c main_v60) j (((cfg3.win 2).blk t).view.emb j) ?_ ?_
  · show V c main_v59 (((cfg3.win 0).blk t).view.emb j) = _
    refine congrArg (V c main_v59) (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 512 + 1 * (j 1).val = win3_2.index t (1 : Fin 2) * 512 + 1 * (j 1).val; omega
  · show V c main_v60 (((cfg3.win 1).blk t).view.emb (ix2 (0 : Fin 1) (⟨(j 1).val, idx2_lt1 j⟩ : Fin 512))) = _
    refine congrArg (V c main_v60) (funext fun a => Fin.ext ?_)
    match a with
    | ⟨0, _⟩ => show win3_1.index t (0 : Fin 2) * 1 + 1 * 0 = 0; omega
    | ⟨1, _⟩ => show win3_1.index t (1 : Fin 2) * 512 + 1 * (j 1).val = win3_2.index t (1 : Fin 2) * 512 + 1 * (j 1).val; omega

/-- An index of the output array is in point t's block iff each coordinate is in the block's range on its axis. -/
theorem mem_blk (t : Fin cfg3.N) (i : S50000x512.Idx) :
    i ∈ ((cfg3.win 2).blk t).view.set ↔ ∀ a : Fin 2, win3_2.index t a * S2000x512.size a ≤ (i a).val ∧ (i a).val < win3_2.index t a * S2000x512.size a + S2000x512.size a := by
  show i ∈ ((View.whole main_v61).slice (win3_2.rect t)).set ↔ _
  rw [View.set_slice_whole, Rect.mem_set_unit]
  exact Iff.rfl

/-- The 25 blocks tile the output array: row r lies in the block of the point whose block row is r / 2000. -/
theorem cover (i : S50000x512.Idx) :
    ∃ t : Fin cfg3.N, (cfg3.win 2).flush t = true ∧ i ∈ ((cfg3.win 2).blk t).view.set := by
  have hi0 : (i 0).val < 50000 := (i 0).isLt
  have hi1 : (i 1).val < 512 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 512 ≤ (i 1).val ∧ (i 1).val < win3_2.index t (1 : Fin 2) * 512 + 512; omega

/-- After the pipeline the output array holds tanh (A + bias row) of the two input arrays as the region found them. -/
theorem arr (c : Dev nD) :
    (dat3 (F := Ideal) V c).arrAt 2 cfg3.N = biasTanh (V c main_v59) (V c main_v60) :=
  (dat3 (F := Ideal) V c).arrAt_eq_of_cover 2 (biasTanh (V c main_v59) (V c main_v60)) (fun t _ => flushed_eq V c t) cover

end Cert.KernelIdeal.Region3

end
-- ==== Proof.Region4.lean ====
/-
  The third layer's dense kernel computes the whole matrix product, block row by block row.

  The pipeline's grid has 25 points; point t stages rows 2000·t … 2000·t + 1999 of the input matrix and the whole weight
  matrix, and writes back the same rows of the product. What point t writes back is therefore block t of the whole
  product X · W, and the 25 blocks tile the 50000 rows: after the pipeline the output array holds X · W, whatever the
  contents V the region was entered with.
-/
import proofs.«128089_j63290638074050_1_alg».proof.Proof.Gen.KernelIdeal.Frame
import proofs.«128089_j63290638074050_1_alg».proof.Proof.Blocks
import Idealize.ShloMosaic.Lib.Pipeline.Value

set_option maxRecDepth 16384

noncomputable section

namespace Cert.KernelIdeal.Region4

open Cert.KernelIdeal Cert.KernelIdeal.Gen Cert.KernelIdeal.Blocks Cert.Layer
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input block and the output block of point t are both block row t; the weight matrix
    is one block. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 24 :=
  (by decide +kernel : ∀ t : Fin grid4.N, _)

/-- Every block row is some point's. -/
theorem idx_onto : ∀ q0 : Fin 25, ∃ t : Fin cfg4.N, win4_2.index t = ![q0.val, 0] :=
  (by decide +kernel : ∀ q0 : Fin 25, ∃ t : Fin grid4.N, win4_2.index t = ![q0.val, 0])

/-- What point t writes back is block t of the whole product. -/
theorem flushed_eq (c : Dev nD) (t : Fin cfg4.N) :
    (dat4 (F := Ideal) V c).flushed 2 t
      = ((cfg4.win 2).blk t).view.read (Elt Ideal) (dense512 (V c main_v61) (V c main_arg7)) := by
  show (cfg4.win 2).cut (grid4.coords t) ((dat4 V c).after 2 t) = _
  rw [after4_2]
  unfold out4_2
  rw [View.canon_unit_zero hz]
  simp only [View.ld_unit_zero (S := S2000x512) hz, View.ld_unit_zero (S := S512x512) hz]
  obtain ⟨e0, e1, e2, e3, e4, e5⟩ := idx_facts t
  funext j
  show k4_pay1 (iblk4 V c 0 t) (iblk4 V c 1 t) j = dense512 (V c main_v61) (V c main_arg7) (((cfg4.win 2).blk t).view.emb j)
  have hj0 : (j 0).val < 2000 := (j 0).isLt
  have hj1 : (j 1).val < 512 := (j 1).isLt
  refine dense4_block (iblk4 V c 0 t) (iblk4 V c 1 t) (V c main_v61) (V c main_arg7) j (((cfg4.win 2).blk t).view.emb j) ?_ ?_
  · intro k
    show V c main_v61 (((cfg4.win 0).blk t).view.emb (ix2 (⟨(j 0).val, idx2_lt0 j⟩ : Fin 2000) k)) = _
    refine congrArg (V c main_v61) (funext fun a => Fin.ext ?_)
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 512 + 1 * k.val = k.val; omega
  · intro k
    show V c main_arg7 (((cfg4.win 1).blk t).view.emb (ix2 k (⟨(j 1).val, idx2_lt1 j⟩ : Fin 512))) = _
    refine congrArg (V c main_arg7) (funext fun a => Fin.ext ?_)
    match a with
    | ⟨0, _⟩ => show win4_1.index t (0 : Fin 2) * 512 + 1 * k.val = k.val; omega
    | ⟨1, _⟩ => show win4_1.index t (1 : Fin 2) * 512 + 1 * (j 1).val = win4_2.index t (1 : Fin 2) * 512 + 1 * (j 1).val; omega

/-- An index of the output array is in point t's block iff each coordinate is in the block's range on its axis. -/
theorem mem_blk (t : Fin cfg4.N) (i : S50000x512.Idx) :
    i ∈ ((cfg4.win 2).blk t).view.set ↔ ∀ a : Fin 2, win4_2.index t a * S2000x512.size a ≤ (i a).val ∧ (i a).val < win4_2.index t a * S2000x512.size a + S2000x512.size a := by
  show i ∈ ((View.whole main_v62).slice (win4_2.rect t)).set ↔ _
  rw [View.set_slice_whole, Rect.mem_set_unit]
  exact Iff.rfl

/-- The 25 blocks tile the output array: row r lies in the block of the point whose block row is r / 2000. -/
theorem cover (i : S50000x512.Idx) :
    ∃ t : Fin cfg4.N, (cfg4.win 2).flush t = true ∧ i ∈ ((cfg4.win 2).blk t).view.set := by
  have hi0 : (i 0).val < 50000 := (i 0).isLt
  have hi1 : (i 1).val < 512 := (i 1).isLt
  obtain ⟨t, ht⟩ := idx_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 512 ≤ (i 1).val ∧ (i 1).val < win4_2.index t (1 : Fin 2) * 512 + 512; omega

/-- After the pipeline the output array holds the whole product of the two input arrays as the region found them. -/
theorem arr (c : Dev nD) :
    (dat4 (F := Ideal) V c).arrAt 2 cfg4.N = dense512 (V c main_v61) (V c main_arg7) :=
  (dat4 (F := Ideal) V c).arrAt_eq_of_cover 2 (dense512 (V c main_v61) (V c main_arg7)) (fun t _ => flushed_eq V c t) cover

end Cert.KernelIdeal.Region4

end
-- ==== Proof.Region5.lean ====
/-
  The third layer's epilogue kernel computes tanh (aggregated messages + bias) on the whole array, block row by block row.

  The pipeline's grid has 25 points; point t stages rows 2000·t … 2000·t + 1999 of the aggregated messages and the bias
  row, and writes back tanh (messages + bias) on the same rows. What point t writes back is block t of the whole-array
  function, and the 25 blocks tile the 50000 rows: after the pipeline the output array holds tanh (A + bias row), whatever
  the contents V the region was entered with.
-/
import proofs.«128089_j63290638074050_1_alg».proof.Proof.Gen.KernelIdeal.Frame
import proofs.«128089_j63290638074050_1_alg».proof.Proof.Blocks
import Idealize.ShloMosaic.Lib.Pipeline.Value

set_option maxRecDepth 16384

noncomputable section

namespace Cert.KernelIdeal.Region5

open Cert.KernelIdeal Cert.KernelIdeal.Gen Cert.KernelIdeal.Blocks Cert.Layer
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input block and the output block of point t are both block row t; the bias row is
    one block. -/
theorem idx_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0
    ∧ win5_2.index t (0 : Fin 2) ≤ 24 :=
  (by decide +kernel : ∀ t : Fin grid5.N, _)

/-- Every block row is some point's. -/
theorem idx_onto : ∀ q0 : Fin 25, ∃ t : Fin cfg5.N, win5_2.index t = ![q0.val, 0] :=
  (by decide +kernel : ∀ q0 : Fin 25, ∃ t : Fin grid5.N, win5_2.index t = ![q0.val, 0])

/-- What point t writes back is block t of tanh (A + bias row). -/
theorem flushed_eq (c : Dev nD) (t : Fin cfg5.N) :
    (dat5 (F := Ideal) V c).flushed 2 t
      = ((cfg5.win 2).blk t).view.read (Elt Ideal) (biasTanh (V c main_v75) (V c main_v76)) := by
  show (cfg5.win 2).cut (grid5.coords t) ((dat5 V c).after 2 t) = _
  rw [after5_2]
  unfold out5_2
  rw [View.canon_unit_zero hz]
  simp only [View.ld_unit_zero (S := S2000x512) hz, View.ld_unit_zero (S := S1x512) hz]
  obtain ⟨e0, e1, e2, e3, e4, e5⟩ := idx_facts t
  funext j
  show k5_pay1 (iblk5 V c 0 t) (iblk5 V c 1 t) j = biasTanh (V c main_v75) (V c main_v76) (((cfg5.win 2).blk t).view.emb j)
  have hj0 : (j 0).val < 2000 := (j 0).isLt
  have hj1 : (j 1).val < 512 := (j 1).isLt
  refine epi5_block (iblk5 V c 0 t) (iblk5 V c 1 t) (V c main_v75) (V c main_v76) j (((cfg5.win 2).blk t).view.emb j) ?_ ?_
  · show V c main_v75 (((cfg5.win 0).blk t).view.emb j) = _
    refine congrArg (V c main_v75) (funext fun a => Fin.ext ?_)
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 512 + 1 * (j 1).val = win5_2.index t (1 : Fin 2) * 512 + 1 * (j 1).val; omega
  · show V c main_v76 (((cfg5.win 1).blk t).view.emb (ix2 (0 : Fin 1) (⟨(j 1).val, idx2_lt1 j⟩ : Fin 512))) = _
    refine congrArg (V c main_v76) (funext fun a => Fin.ext ?_)
    match a with
    | ⟨0, _⟩ => show win5_1.index t (0 : Fin 2) * 1 + 1 * 0 = 0; omega
    | ⟨1, _⟩ => show win5_1.index t (1 : Fin 2) * 512 + 1 * (j 1).val = win5_2.index t (1 : Fin 2) * 512 + 1 * (j 1).val; omega

/-- An index of the output array is in point t's block iff each coordinate is in the block's range on its axis. -/
theorem mem_blk (t : Fin cfg5.N) (i : S50000x512.Idx) :
    i ∈ ((cfg5.win 2).blk t).view.set ↔ ∀ a : Fin 2, win5_2.index t a * S2000x512.size a ≤ (i a).val ∧ (i a).val < win5_2.index t a * S2000x512.size a + S2000x512.size a := by
  show i ∈ ((View.whole main_v77).slice (win5_2.rect t)).set ↔ _
  rw [View.set_slice_whole, Rect.mem_set_unit]
  exact Iff.rfl

/-- The 25 blocks tile the output array: row r lies in the block of the point whose block row is r / 2000. -/
theorem cover (i : S50000x512.Idx) :
    ∃ t : Fin cfg5.N, (cfg5.win 2).flush t = true ∧ i ∈ ((cfg5.win 2).blk t).view.set := by
  have hi0 : (i 0).val < 50000 := (i 0).isLt
  have hi1 : (i 1).val < 512 := (i 1).isLt
  obtain ⟨t, ht⟩ := idx_onto ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 512 ≤ (i 1).val ∧ (i 1).val < win5_2.index t (1 : Fin 2) * 512 + 512; omega

/-- After the pipeline the output array holds tanh (A + bias row) of the two input arrays as the region found them. -/
theorem arr (c : Dev nD) :
    (dat5 (F := Ideal) V c).arrAt 2 cfg5.N = biasTanh (V c main_v75) (V c main_v76) :=
  (dat5 (F := Ideal) V c).arrAt_eq_of_cover 2 (biasTanh (V c main_v75) (V c main_v76)) (fun t _ => flushed_eq V c t) cover

end Cert.KernelIdeal.Region5

end
-- ==== Proof.KStep.lean ====
/-
  Each pipeline as a map of buffer contents. Between two stretches of host operations a pipeline replaces the contents
  of its output array by the stage's whole-array function of its two input arrays — the matrix product for a dense
  kernel, tanh (messages + bias row) for an epilogue kernel — and leaves every other buffer as it was. With that, the
  contents at each boundary of the program are a fold of plain functions from the launch memory.
-/
import proofs.«128089_j63290638074050_1_alg».proof.Proof.Region0
import proofs.«128089_j63290638074050_1_alg».proof.Proof.Region1
import proofs.«128089_j63290638074050_1_alg».proof.Proof.Region2
import proofs.«128089_j63290638074050_1_alg».proof.Proof.Region3
import proofs.«128089_j63290638074050_1_alg».proof.Proof.Region4
import proofs.«128089_j63290638074050_1_alg».proof.Proof.Region5
import Idealize.ShloMosaic.Lib.StableHlo.Run

set_option maxRecDepth 16384

noncomputable section

namespace Cert.KernelIdeal.Steps

open Cert.KernelIdeal Cert.KernelIdeal.Gen Cert.Layer
open Idealize.ShloMosaic Idealize.ShloMosaic.TcCoe Idealize.SL.Sem Idealize.ShloMosaic.StableHlo

/-! ## Region 0 -/

/-- Region 0 as a map of boundary contents: its arrays at what the pipeline leaves, every other buffer as entered. -/
def step0 (V : Dev nD → Valuation τ sig (Elt Ideal)) (c : Dev nD) : Valuation τ sig (Elt Ideal) :=
  Pipeline.withArrays spec0 c (V c) fun w => (dat0 (F := Ideal) (fun c b => V c b) c).arrAt w cfg0.N

/-- The output array after the region is the stage's whole-array function of the two input arrays as entered. -/
theorem step0_out (V : Dev nD → Valuation τ sig (Elt Ideal)) (c : Dev nD) :
    step0 V c (no_index (Proc.devRef .tc main_v30)) = dense128 (V c (Proc.devRef .tc main_arg0)) (V c (Proc.devRef .tc main_arg3)) :=
  (Pipeline.withArrays_arr spec0 launch0.win.arr_inj c _ _ 2).trans (Region0.arr (fun c b => V c b) c)

/-- Every other buffer is as entered: an input array is only read, and nothing else is touched. -/
theorem step0_keep (V : Dev nD → Valuation τ sig (Elt Ideal)) (c : Dev nD) {r : Ref sig .tc} (h : r ≠ main_v30) :
    step0 V c (no_index (Proc.devRef .tc r)) = V c (Proc.devRef .tc r) := by
  by_cases h0 : Pipeline.arrRef spec0 0 = r
  · subst h0
    exact (Pipeline.withArrays_arr spec0 launch0.win.arr_inj c _ _ 0).trans
      (((dat0 (F := Ideal) (fun c b => V c b) c).arrAt_in 0 rfl _).trans (A_eq0 (fun c b => V c b) c 0))
  by_cases h1 : Pipeline.arrRef spec0 1 = r
  · subst h1
    exact (Pipeline.withArrays_arr spec0 launch0.win.arr_inj c _ _ 1).trans
      (((dat0 (F := Ideal) (fun c b => V c b) c).arrAt_in 1 rfl _).trans (A_eq0 (fun c b => V c b) c 1))
  exact Pipeline.withArrays_of_ne spec0 c _ _ r (fun w => by
    match w with
    | ⟨0, _⟩ => exact h0
    | ⟨1, _⟩ => exact h1
    | ⟨2, _⟩ => exact fun e => h e.symm)

/-! ## Region 1 -/

/-- Region 1 as a map of boundary contents: its arrays at what the pipeline leaves, every other buffer as entered. -/
def step1 (V : Dev nD → Valuation τ sig (Elt Ideal)) (c : Dev nD) : Valuation τ sig (Elt Ideal) :=
  Pipeline.withArrays spec1 c (V c) fun w => (dat1 (F := Ideal) (fun c b => V c b) c).arrAt w cfg1.N

/-- The output array after the region is the stage's whole-array function of the two input arrays as entered. -/
theorem step1_out (V : Dev nD → Valuation τ sig (Elt Ideal)) (c : Dev nD) :
    step1 V c (no_index (Proc.devRef .tc main_v45)) = biasTanh (V c (Proc.devRef .tc main_v43)) (V c (Proc.devRef .tc main_v44)) :=
  (Pipeline.withArrays_arr spec1 launch1.win.arr_inj c _ _ 2).trans (Region1.arr (fun c b => V c b) c)

/-- Every other buffer is as entered: an input array is only read, and nothing else is touched. -/
theorem step1_keep (V : Dev nD → Valuation τ sig (Elt Ideal)) (c : Dev nD) {r : Ref sig .tc} (h : r ≠ main_v45) :
    step1 V c (no_index (Proc.devRef .tc r)) = V c (Proc.devRef .tc r) := by
  by_cases h0 : Pipeline.arrRef spec1 0 = r
  · subst h0
    exact (Pipeline.withArrays_arr spec1 launch1.win.arr_inj c _ _ 0).trans
      (((dat1 (F := Ideal) (fun c b => V c b) c).arrAt_in 0 rfl _).trans (A_eq1 (fun c b => V c b) c 0))
  by_cases h1 : Pipeline.arrRef spec1 1 = r
  · subst h1
    exact (Pipeline.withArrays_arr spec1 launch1.win.arr_inj c _ _ 1).trans
      (((dat1 (F := Ideal) (fun c b => V c b) c).arrAt_in 1 rfl _).trans (A_eq1 (fun c b => V c b) c 1))
  exact Pipeline.withArrays_of_ne spec1 c _ _ r (fun w => by
    match w with
    | ⟨0, _⟩ => exact h0
    | ⟨1, _⟩ => exact h1
    | ⟨2, _⟩ => exact fun e => h e.symm)

/-! ## Region 2 -/

/-- Region 2 as a map of boundary contents: its arrays at what the pipeline leaves, every other buffer as entered. -/
def step2 (V : Dev nD → Valuation τ sig (Elt Ideal)) (c : Dev nD) : Valuation τ sig (Elt Ideal) :=
  Pipeline.withArrays spec2 c (V c) fun w => (dat2 (F := Ideal) (fun c b => V c b) c).arrAt w cfg2.N

/-- The output array after the region is the stage's whole-array function of the two input arrays as entered. -/
theorem step2_out (V : Dev nD → Valuation τ sig (Elt Ideal)) (c : Dev nD) :
    step2 V c (no_index (Proc.devRef .tc main_v46)) = dense512 (V c (Proc.devRef .tc main_v45)) (V c (Proc.devRef .tc main_arg5)) :=
  (Pipeline.withArrays_arr spec2 launch2.win.arr_inj c _ _ 2).trans (Region2.arr (fun c b => V c b) c)

/-- Every other buffer is as entered: an input array is only read, and nothing else is touched. -/
theorem step2_keep (V : Dev nD → Valuation τ sig (Elt Ideal)) (c : Dev nD) {r : Ref sig .tc} (h : r ≠ main_v46) :
    step2 V c (no_index (Proc.devRef .tc r)) = V c (Proc.devRef .tc r) := by
  by_cases h0 : Pipeline.arrRef spec2 0 = r
  · subst h0
    exact (Pipeline.withArrays_arr spec2 launch2.win.arr_inj c _ _ 0).trans
      (((dat2 (F := Ideal) (fun c b => V c b) c).arrAt_in 0 rfl _).trans (A_eq2 (fun c b => V c b) c 0))
  by_cases h1 : Pipeline.arrRef spec2 1 = r
  · subst h1
    exact (Pipeline.withArrays_arr spec2 launch2.win.arr_inj c _ _ 1).trans
      (((dat2 (F := Ideal) (fun c b => V c b) c).arrAt_in 1 rfl _).trans (A_eq2 (fun c b => V c b) c 1))
  exact Pipeline.withArrays_of_ne spec2 c _ _ r (fun w => by
    match w with
    | ⟨0, _⟩ => exact h0
    | ⟨1, _⟩ => exact h1
    | ⟨2, _⟩ => exact fun e => h e.symm)

/-! ## Region 3 -/

/-- Region 3 as a map of boundary contents: its arrays at what the pipeline leaves, every other buffer as entered. -/
def step3 (V : Dev nD → Valuation τ sig (Elt Ideal)) (c : Dev nD) : Valuation τ sig (Elt Ideal) :=
  Pipeline.withArrays spec3 c (V c) fun w => (dat3 (F := Ideal) (fun c b => V c b) c).arrAt w cfg3.N

/-- The output array after the region is the stage's whole-array function of the two input arrays as entered. -/
theorem step3_out (V : Dev nD → Valuation τ sig (Elt Ideal)) (c : Dev nD) :
    step3 V c (no_index (Proc.devRef .tc main_v61)) = biasTanh (V c (Proc.devRef .tc main_v59)) (V c (Proc.devRef .tc main_v60)) :=
  (Pipeline.withArrays_arr spec3 launch3.win.arr_inj c _ _ 2).trans (Region3.arr (fun c b => V c b) c)

/-- Every other buffer is as entered: an input array is only read, and nothing else is touched. -/
theorem step3_keep (V : Dev nD → Valuation τ sig (Elt Ideal)) (c : Dev nD) {r : Ref sig .tc} (h : r ≠ main_v61) :
    step3 V c (no_index (Proc.devRef .tc r)) = V c (Proc.devRef .tc r) := by
  by_cases h0 : Pipeline.arrRef spec3 0 = r
  · subst h0
    exact (Pipeline.withArrays_arr spec3 launch3.win.arr_inj c _ _ 0).trans
      (((dat3 (F := Ideal) (fun c b => V c b) c).arrAt_in 0 rfl _).trans (A_eq3 (fun c b => V c b) c 0))
  by_cases h1 : Pipeline.arrRef spec3 1 = r
  · subst h1
    exact (Pipeline.withArrays_arr spec3 launch3.win.arr_inj c _ _ 1).trans
      (((dat3 (F := Ideal) (fun c b => V c b) c).arrAt_in 1 rfl _).trans (A_eq3 (fun c b => V c b) c 1))
  exact Pipeline.withArrays_of_ne spec3 c _ _ r (fun w => by
    match w with
    | ⟨0, _⟩ => exact h0
    | ⟨1, _⟩ => exact h1
    | ⟨2, _⟩ => exact fun e => h e.symm)

/-! ## Region 4 -/

/-- Region 4 as a map of boundary contents: its arrays at what the pipeline leaves, every other buffer as entered. -/
def step4 (V : Dev nD → Valuation τ sig (Elt Ideal)) (c : Dev nD) : Valuation τ sig (Elt Ideal) :=
  Pipeline.withArrays spec4 c (V c) fun w => (dat4 (F := Ideal) (fun c b => V c b) c).arrAt w cfg4.N

/-- The output array after the region is the stage's whole-array function of the two input arrays as entered. -/
theorem step4_out (V : Dev nD → Valuation τ sig (Elt Ideal)) (c : Dev nD) :
    step4 V c (no_index (Proc.devRef .tc main_v62)) = dense512 (V c (Proc.devRef .tc main_v61)) (V c (Proc.devRef .tc main_arg7)) :=
  (Pipeline.withArrays_arr spec4 launch4.win.arr_inj c _ _ 2).trans (Region4.arr (fun c b => V c b) c)

/-- Every other buffer is as entered: an input array is only read, and nothing else is touched. -/
theorem step4_keep (V : Dev nD → Valuation τ sig (Elt Ideal)) (c : Dev nD) {r : Ref sig .tc} (h : r ≠ main_v62) :
    step4 V c (no_index (Proc.devRef .tc r)) = V c (Proc.devRef .tc r) := by
  by_cases h0 : Pipeline.arrRef spec4 0 = r
  · subst h0
    exact (Pipeline.withArrays_arr spec4 launch4.win.arr_inj c _ _ 0).trans
      (((dat4 (F := Ideal) (fun c b => V c b) c).arrAt_in 0 rfl _).trans (A_eq4 (fun c b => V c b) c 0))
  by_cases h1 : Pipeline.arrRef spec4 1 = r
  · subst h1
    exact (Pipeline.withArrays_arr spec4 launch4.win.arr_inj c _ _ 1).trans
      (((dat4 (F := Ideal) (fun c b => V c b) c).arrAt_in 1 rfl _).trans (A_eq4 (fun c b => V c b) c 1))
  exact Pipeline.withArrays_of_ne spec4 c _ _ r (fun w => by
    match w with
    | ⟨0, _⟩ => exact h0
    | ⟨1, _⟩ => exact h1
    | ⟨2, _⟩ => exact fun e => h e.symm)

/-! ## Region 5 -/

/-- Region 5 as a map of boundary contents: its arrays at what the pipeline leaves, every other buffer as entered. -/
def step5 (V : Dev nD → Valuation τ sig (Elt Ideal)) (c : Dev nD) : Valuation τ sig (Elt Ideal) :=
  Pipeline.withArrays spec5 c (V c) fun w => (dat5 (F := Ideal) (fun c b => V c b) c).arrAt w cfg5.N

/-- The output array after the region is the stage's whole-array function of the two input arrays as entered. -/
theorem step5_out (V : Dev nD → Valuation τ sig (Elt Ideal)) (c : Dev nD) :
    step5 V c (no_index (Proc.devRef .tc main_v77)) = biasTanh (V c (Proc.devRef .tc main_v75)) (V c (Proc.devRef .tc main_v76)) :=
  (Pipeline.withArrays_arr spec5 launch5.win.arr_inj c _ _ 2).trans (Region5.arr (fun c b => V c b) c)

/-- Every other buffer is as entered: an input array is only read, and nothing else is touched. -/
theorem step5_keep (V : Dev nD → Valuation τ sig (Elt Ideal)) (c : Dev nD) {r : Ref sig .tc} (h : r ≠ main_v77) :
    step5 V c (no_index (Proc.devRef .tc r)) = V c (Proc.devRef .tc r) := by
  by_cases h0 : Pipeline.arrRef spec5 0 = r
  · subst h0
    exact (Pipeline.withArrays_arr spec5 launch5.win.arr_inj c _ _ 0).trans
      (((dat5 (F := Ideal) (fun c b => V c b) c).arrAt_in 0 rfl _).trans (A_eq5 (fun c b => V c b) c 0))
  by_cases h1 : Pipeline.arrRef spec5 1 = r
  · subst h1
    exact (Pipeline.withArrays_arr spec5 launch5.win.arr_inj c _ _ 1).trans
      (((dat5 (F := Ideal) (fun c b => V c b) c).arrAt_in 1 rfl _).trans (A_eq5 (fun c b => V c b) c 1))
  exact Pipeline.withArrays_of_ne spec5 c _ _ r (fun w => by
    match w with
    | ⟨0, _⟩ => exact h0
    | ⟨1, _⟩ => exact h1
    | ⟨2, _⟩ => exact fun e => h e.symm)

/-! ## The program's boundaries as folds of these maps -/

variable (m : (ℓ : Loc nD τ sig) → Buf (Elt Ideal) ℓ) (ρ : Dev nD → PrngReg)

theorem W4_eq (c : Dev nD) : W4 m ρ c = step0 (W3 m ρ) c := rfl
theorem W6_eq (c : Dev nD) : W6 m ρ c = step1 (W5 m ρ) c := rfl
theorem W7_eq (c : Dev nD) : W7 m ρ c = step2 (W6 m ρ) c := rfl
theorem W9_eq (c : Dev nD) : W9 m ρ c = step3 (W8 m ρ) c := rfl
theorem W10_eq (c : Dev nD) : W10 m ρ c = step4 (W9 m ρ) c := rfl
theorem W12_eq (c : Dev nD) : W12 m ρ c = step5 (W11 m ρ) c := rfl

end Cert.KernelIdeal.Steps

end
-- ==== Proof.Bridge.lean ====
/-
  The kernel's stages and the reference's operations are the same whole-array functions at exact arithmetic.

  A dense stage X · W, entry (r, q) the sum over k of X (r, k) · W (k, q), is the host's matrix product with the
  reference's dimension numbers, which contract the columns of X against the rows of W. An epilogue stage
  tanh (A + bias row) is the reference's tanh (A + bias), the bias vector broadcast first to a one-row matrix and then
  down the 50000 rows: both read the bias at the entry's column.
-/
import proofs.«128089_j63290638074050_1_alg».proof.Proof.Spec
import proofs.«128089_j63290638074050_1_alg».proof.Proof.LibDotEntry
import proofs.«128089_j63290638074050_1_alg».proof.Proof.RefReadP
import Idealize.ShloMosaic.Lib.ValueIdx
import Idealize.ShloMosaic.Lib.Pipeline.Value

noncomputable section

namespace Cert.Bridge

open Cert.Layer Idealize.ShloMosaic Idealize.ShloMosaic.TcCoe Idealize.SL.Sem Idealize.ShloMosaic.ValueIdx

/-- The first layer's dense stage is the reference's product of the features with the first weight matrix. -/
theorem dense128_eq (X : FVec Ideal Cert.KernelIdeal.S50000x128 .f32) (W : FVec Ideal Cert.KernelIdeal.S128x512 .f32) :
    dense128 X W = Cert.ReferenceIdeal.ReadP.val_main_v4 (F := Ideal) X W := by
  funext i
  refine Eq.trans ?_ (congrArg (Cert.ReferenceIdeal.ReadP.val_main_v4 (F := Ideal) X W) (eq_ix2 i).symm)
  unfold dense128 Cert.ReferenceIdeal.ReadP.val_main_v4
  exact (Cert.Lib.DotEntry.dotGeneral_ix2 Cert.ReferenceIdeal.dot_S50000x128_S128x512_S50000x512_1_0_0_1_n_n rfl rfl
    Cert.ReferenceIdeal.ReadP.lhs_main_v4_0 Cert.ReferenceIdeal.ReadP.lhs_main_v4_1
    Cert.ReferenceIdeal.ReadP.rhs_main_v4_0 Cert.ReferenceIdeal.ReadP.rhs_main_v4_1 X W (i 0) (i 1)).symm

/-- A later layer's dense stage is the host's product, with the reference's dimension numbers, of the previous
    layer's output with that layer's weight matrix. -/
theorem dense512_eq (X : FVec Ideal Cert.KernelIdeal.S50000x512 .f32) (W : FVec Ideal Cert.KernelIdeal.S512x512 .f32) :
    dense512 X W = Host.dotGeneral (F := Ideal) Cert.ReferenceIdeal.dot_S50000x512_S512x512_S50000x512_1_0_0_1_n_n none X W := by
  funext i
  refine Eq.trans ?_ (congrArg (Host.dotGeneral (F := Ideal) Cert.ReferenceIdeal.dot_S50000x512_S512x512_S50000x512_1_0_0_1_n_n none X W) (eq_ix2 i).symm)
  unfold dense512
  exact (Cert.Lib.DotEntry.dotGeneral_ix2 Cert.ReferenceIdeal.dot_S50000x512_S512x512_S50000x512_1_0_0_1_n_n rfl rfl
    Cert.ReferenceIdeal.ReadP.lhs_main_v48_0 Cert.ReferenceIdeal.ReadP.lhs_main_v48_1
    Cert.ReferenceIdeal.ReadP.rhs_main_v48_0 Cert.ReferenceIdeal.ReadP.rhs_main_v48_1 X W (i 0) (i 1)).symm

/-- A 512-vector recast as a one-row matrix, read at (0, q), is the vector's entry q. -/
theorem rowCast_entry (b : FVec Ideal Cert.KernelIdeal.S512 .f32)
    (h : Cert.KernelIdeal.S512.ShapeCasts Cert.KernelIdeal.S1x512) (q : Fin 512) :
    shapeCast Cert.KernelIdeal.S1x512 b h (ix2 (0 : Fin 1) q) = b (ix1 q) :=
  shapeCast_apply b h (ix2 (0 : Fin 1) q) (ix1 q) (by
    rw [Shape.rowMajor_val_one, Shape.rowMajor_val_two]
    show q.val = 0 * 512 + q.val
    omega)

/-- An epilogue stage is the reference's tanh (A + bias): whenever the one-row matrix B holds the bias vector b,
    tanh (A + row B) is tanh of A plus b broadcast to a row and then down the rows. -/
theorem biasTanh_eq (A : FVec Ideal Cert.KernelIdeal.S50000x512 .f32) (B : FVec Ideal Cert.KernelIdeal.S1x512 .f32)
    (b : FVec Ideal Cert.KernelIdeal.S512 .f32) (hB : ∀ q : Fin 512, B (ix2 (0 : Fin 1) q) = b (ix1 q)) :
    biasTanh A B = Host.tanh (F := Ideal) (addf A (Cert.ReferenceIdeal.ReadP.val_main_v45 (F := Ideal) b)) := by
  funext i
  show Ideal.tanh (A i + B (ix2 (0 : Fin 1) (⟨(i 1).val, idx2_lt1 i⟩ : Fin 512)))
    = Ideal.tanh (A i + Cert.ReferenceIdeal.ReadP.val_main_v45 (F := Ideal) b i)
  rw [hB, Cert.ReferenceIdeal.ReadP.val_main_v45_apply, Cert.ReferenceIdeal.ReadP.val_main_v44_apply]
  exact congrArg (fun t => Ideal.tanh (A i + b t)) (funext fun a => by match a with | ⟨0, _⟩ => rfl)

end Cert.Bridge

end
-- ==== Proof.Stretch0.lean ====
/-
  The program's first three stretches of host operations, read one piece at a time. From the edge list alone they
  compute: the sources and the targets, each with the 50000 self loops appended; the in-degree of every node, self loop
  included, as a sum of ones scattered to the targets; 1/sqrt(degree) where the degree is positive and 0 elsewhere; and
  for every edge the product of that value at its source and at its target. The reference's first layer computes the same
  arrays by the same operations. Each piece is stated over arbitrary buffer contents V, as a function of the buffers it
  reads, so that each comparison with the reference's stage is between two short terms.
-/
import proofs.«128089_j63290638074050_1_alg».proof.Proof.Gen.KernelIdeal.Launch
import proofs.«128089_j63290638074050_1_alg».proof.Proof.RefReadP
import Idealize.ShloMosaic.Lib.StableHlo.Run

set_option maxRecDepth 16384

noncomputable section

namespace Cert.KernelIdeal.Stretch0

open Cert.KernelIdeal Cert.KernelIdeal.Gen
open Idealize.ShloMosaic Idealize.ShloMosaic.TcCoe Idealize.SL.Sem Idealize.ShloMosaic.StableHlo

section Cut
variable {F : FTy → Type} [FloatOps F]

/-- The first stretch up to the two concatenations: the edge list's two rows, the self loops, and each row with the
    self loops appended. -/
abbrev pre0 : List (HloOp τ sig (Elt F)) :=
  [ StableHlo.unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v0 main_v1 rfl shapeCasts_S1x400000_S400000,
    StableHlo.unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v2 main_v3 rfl shapeCasts_S1x400000_S400000,
    StableHlo.nullary main_v4 (iotaInDim S50000 32 0),
    StableHlo.binary main_v1 main_v4 main_v5 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)),
    StableHlo.binary main_v3 main_v4 main_v6 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)) ]

/-- The rest of the first stretch: the degrees, their comparison with zero and their reciprocal square roots. -/
abbrev post0 : List (HloOp τ sig (Elt F)) :=
  [ StableHlo.nullary main_cst (constant S_ .f32 0x3F800000#32),
    StableHlo.unary main_cst main_v7 (broadcastInDim S450000 ![] bcast_S_S450000 : (⟨S_, .f32⟩ : BufTy).Contents (Elt F) → (⟨S450000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S450000x1 ![0] bcast_S450000_S450000x1_0 : (⟨S450000, .i32⟩ : BufTy).Contents (Elt F) → (⟨S450000x1, .i32⟩ : BufTy).Contents (Elt F)),
    StableHlo.ternary main_v8 main_v9 main_v7 main_v10 ((fun x i u => Host.scatterAdd scatter_S50000_S450000x1_S450000_n_0_0_1 x i u) : (⟨S50000, .f32⟩ : BufTy).Contents (Elt F) → (⟨S450000x1, .i32⟩ : BufTy).Contents (Elt F) → (⟨S450000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]

theorem cut0 : (hostOps0 : List (HloOp τ sig (Elt F))) = pre0 ++ post0 := rfl

/-- Running two lists of host operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

end Cut

variable (V : Valuation τ sig (Elt Ideal)) (x1 : (⟨S2x400000, .i32⟩ : BufTy).Contents (Elt Ideal))

/-- The sources with the self loops appended, from the two pieces. -/
theorem src_of_pieces {a : (⟨S400000, .i32⟩ : BufTy).Contents (Elt Ideal)} {b : (⟨S50000, .i32⟩ : BufTy).Contents (Elt Ideal)}
    (ha : a = Cert.ReferenceIdeal.ReadP.val_main_v1 (F := Ideal) x1) (hb : b = Cert.ReferenceIdeal.ReadP.val_main_v5 (F := Ideal)) :
    concatenate S450000 0 [⟨S400000, a⟩, ⟨S50000, b⟩] concatenates_S400000_S50000_S450000_d0 = Cert.ReferenceIdeal.ReadP.val_main_v6 (F := Ideal) x1 := by
  subst ha; subst hb; rfl

/-- The targets with the self loops appended, from the two pieces. -/
theorem dst_of_pieces {a : (⟨S400000, .i32⟩ : BufTy).Contents (Elt Ideal)} {b : (⟨S50000, .i32⟩ : BufTy).Contents (Elt Ideal)}
    (ha : a = Cert.ReferenceIdeal.ReadP.val_main_v3 (F := Ideal) x1) (hb : b = Cert.ReferenceIdeal.ReadP.val_main_v5 (F := Ideal)) :
    concatenate S450000 0 [⟨S400000, a⟩, ⟨S50000, b⟩] concatenates_S400000_S50000_S450000_d0 = Cert.ReferenceIdeal.ReadP.val_main_v7 (F := Ideal) x1 := by
  subst ha; subst hb; rfl

theorem pre_src : after pre0 V (Proc.devRef .tc main_v5) = Cert.ReferenceIdeal.ReadP.val_main_v6 (F := Ideal) (V (Proc.devRef .tc main_arg1)) := by
  dsimp only [pre0]
  after_results_simp
  refine src_of_pieces _ ?_ ?_ <;> (after_results_simp <;> rfl)

theorem pre_dst : after pre0 V (Proc.devRef .tc main_v6) = Cert.ReferenceIdeal.ReadP.val_main_v7 (F := Ideal) (V (Proc.devRef .tc main_arg1)) := by
  dsimp only [pre0]
  after_results_simp
  refine dst_of_pieces _ ?_ ?_ <;> (after_results_simp <;> rfl)

/-- Which nodes have positive degree. -/
theorem post_pos (h6 : V (Proc.devRef .tc main_v6) = Cert.ReferenceIdeal.ReadP.val_main_v7 (F := Ideal) x1) :
    after post0 V (Proc.devRef .tc main_v12) = Cert.ReferenceIdeal.ReadP.val_main_v13 (F := Ideal) x1 := by
  dsimp only [post0]
  after_results_simp
  rw [h6]
  rfl

/-- The reciprocal square roots of the degrees. -/
theorem post_rsqrt (h6 : V (Proc.devRef .tc main_v6) = Cert.ReferenceIdeal.ReadP.val_main_v7 (F := Ideal) x1) :
    after post0 V (Proc.devRef .tc main_v13) = Cert.ReferenceIdeal.ReadP.val_main_v14 (F := Ideal) x1 := by
  dsimp only [post0]
  after_results_simp
  rw [h6]
  rfl

theorem post_zero : after post0 V (Proc.devRef .tc main_cst_2) = Cert.ReferenceIdeal.ReadP.val_main_cst_2 (F := Ideal) := by
  dsimp only [post0]
  after_results_simp <;> rfl

theorem post_keep5 : after post0 V (Proc.devRef .tc main_v5) = V (Proc.devRef .tc main_v5) := by
  dsimp only [post0]
  after_results_simp
theorem post_keep6 : after post0 V (Proc.devRef .tc main_v6) = V (Proc.devRef .tc main_v6) := by
  dsimp only [post0]
  after_results_simp

/-- The selection between the reciprocal square root and zero, on the reference's own comparison and square roots, is
    the reference's selection. -/
theorem dis_select : select (Cert.ReferenceIdeal.ReadP.val_main_v13 (F := Ideal) x1) (Cert.ReferenceIdeal.ReadP.val_main_v14 (F := Ideal) x1)
      (broadcastInDim S50000 ![] bcast_S_S50000 (id (Cert.ReferenceIdeal.ReadP.val_main_cst_2 (F := Ideal))))
    = Cert.ReferenceIdeal.ReadP.val_main_v15 (F := Ideal) x1 := rfl

/-- 1/sqrt(degree) where the degree is positive, 0 elsewhere. -/
theorem dis_stage (h12 : V (Proc.devRef .tc main_v12) = Cert.ReferenceIdeal.ReadP.val_main_v13 (F := Ideal) x1)
    (h13 : V (Proc.devRef .tc main_v13) = Cert.ReferenceIdeal.ReadP.val_main_v14 (F := Ideal) x1)
    (hc : V (Proc.devRef .tc main_cst_2) = Cert.ReferenceIdeal.ReadP.val_main_cst_2 (F := Ideal)) :
    after hostOps0_1 V (Proc.devRef .tc main_v14) = Cert.ReferenceIdeal.ReadP.val_main_v15 (F := Ideal) x1 := by
  dsimp only [hostOps0_1]
  after_results_simp
  rw [h12, h13, hc]
  simp only [TRef.toBuf, TRef.ofBuf, cast_eq]
  exact dis_select x1

theorem dis_keep5 : after hostOps0_1 V (Proc.devRef .tc main_v5) = V (Proc.devRef .tc main_v5) := by
  dsimp only [hostOps0_1]
  after_results_simp
theorem dis_keep6 : after hostOps0_1 V (Proc.devRef .tc main_v6) = V (Proc.devRef .tc main_v6) := by
  dsimp only [hostOps0_1]
  after_results_simp

/-- Every edge's normalisation: the value at its source times the value at its target. -/
theorem norm_stage (h5 : V (Proc.devRef .tc main_v5) = Cert.ReferenceIdeal.ReadP.val_main_v6 (F := Ideal) x1)
    (h6 : V (Proc.devRef .tc main_v6) = Cert.ReferenceIdeal.ReadP.val_main_v7 (F := Ideal) x1)
    (h14 : V (Proc.devRef .tc main_v14) = Cert.ReferenceIdeal.ReadP.val_main_v15 (F := Ideal) x1) :
    after hostOps0_2 V (Proc.devRef .tc main_v29) = Cert.ReferenceIdeal.ReadP.val_main_v30 (F := Ideal) x1 := by
  dsimp only [hostOps0_2]
  after_results_simp
  rw [h5, h6, h14]
  rfl

theorem norm_keep5 : after hostOps0_2 V (Proc.devRef .tc main_v5) = V (Proc.devRef .tc main_v5) := by
  dsimp only [hostOps0_2]
  after_results_simp
theorem norm_keep6 : after hostOps0_2 V (Proc.devRef .tc main_v6) = V (Proc.devRef .tc main_v6) := by
  dsimp only [hostOps0_2]
  after_results_simp

end Cert.KernelIdeal.Stretch0

end
-- ==== Proof.ChainA.lean ====
/-
  What the first region finds on entry. The first three stretches of host operations compute, from the edge list alone,
  the two index arrays with the self loops appended (sources, targets) and the symmetric normalisation
  1/sqrt(deg(source)) · 1/sqrt(deg(target)) of every edge; the reference computes the same three arrays by the same
  operations at the start of its first layer. No segment of the program writes an argument array, and after the first
  three stretches nothing writes these three arrays either: at every later boundary they hold what they held here.
-/
import proofs.«128089_j63290638074050_1_alg».proof.Proof.KStep
import proofs.«128089_j63290638074050_1_alg».proof.Proof.Bridge
import proofs.«128089_j63290638074050_1_alg».proof.Proof.Stretch0

set_option quotPrecheck false
set_option maxRecDepth 16384

noncomputable section

namespace Cert.KernelIdeal.Chain

open Cert.KernelIdeal Cert.KernelIdeal.Gen Cert.KernelIdeal.Steps Cert.Layer
open Idealize.ShloMosaic Idealize.ShloMosaic.TcCoe Idealize.SL.Sem Idealize.ShloMosaic.StableHlo Idealize.ShloMosaic.ValueIdx
open Cert.ReferenceIdeal.ReadP (val_main_v4 val_main_v6 val_main_v7 val_main_v30 val_main_v43 val_main_v47 val_main_v48 val_main_v87
  val_main_v91 val_main_v92 val_main_v131 val_main_v135 val_main_v165)

variable (m : (ℓ : Loc nD τ sig) → Buf (Elt Ideal) ℓ) (ρ : Dev nD → PrngReg) (c : Dev nD)

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)
local notation "A8" => m ((c.tc : Thread nD τ).loc main_arg8)
local notation "A9" => m ((c.tc : Thread nD τ).loc main_arg9)
local notation "A10" => m ((c.tc : Thread nD τ).loc main_arg10)

/-- Walks a buffer that no segment in between writes from a boundary down to the launch memory: a region keeps every
    buffer but its output array, a host operation every buffer but its result. -/
macro "walk_down" : tactic =>
  `(tactic| (simp (disch := decide) only [W12_eq, W10_eq, W9_eq, W7_eq, W6_eq, W4_eq,
      step0_keep, step1_keep, step2_keep, step3_keep, step4_keep, step5_keep,
      W13, W11, W8, W5, W3, W2, W1, hostOps0, hostOps0_1, hostOps0_2, hostOps1, hostOps3, hostOps5, hostOps6,
      after_cons, after_nil,
      nullary_result_ne', unary_result_ne', binary_result_ne', ternary_result_ne', quaternary_result_ne', reshape_result_ne',
      nary_result_ne', unaryIndexed_result_ne', binaryIndexed_result_ne']))

/-- Two index arrays laid end to end: the 400000 edge endpoints, then the 50000 self loops. -/
def withLoops (a : (⟨S400000, .i32⟩ : BufTy).Contents (Elt Ideal)) (b : (⟨S50000, .i32⟩ : BufTy).Contents (Elt Ideal)) :
    (⟨S450000, .i32⟩ : BufTy).Contents (Elt Ideal) :=
  concatenate S450000 0 [⟨S400000, a⟩, ⟨S50000, b⟩] concatenates_S400000_S50000_S450000_d0

theorem withLoops_fold (a : (⟨S400000, .i32⟩ : BufTy).Contents (Elt Ideal)) (b : (⟨S50000, .i32⟩ : BufTy).Contents (Elt Ideal)) :
    concatenate S450000 0 [⟨S400000, a⟩, ⟨S50000, b⟩] concatenates_S400000_S50000_S450000_d0 = withLoops a b := rfl

/-- Reads a buffer after a stretch of host operations as the operations' functions of the buffers before it. The two
    pieces of a concatenation are named first, so that the reading goes on inside them. -/
macro "read_host" : tactic =>
  `(tactic| (simp (disch := decide) only [withLoops_fold, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

/-- The index arrays and the normalisation, as the reference's first layer computes them from the edge list. -/
structure Carried (V : Valuation τ sig (Elt Ideal)) : Prop where
  src : V (Proc.devRef .tc main_v5) = val_main_v6 (F := Ideal) A1
  dst : V (Proc.devRef .tc main_v6) = val_main_v7 (F := Ideal) A1
  norm : V (Proc.devRef .tc main_v29) = val_main_v30 (F := Ideal) A1

/-- At the first region's entry the three arrays are the reference's: piece by piece through the first three stretches,
    from the launch memory. -/
theorem carried3 : Carried m c (W3 m ρ c) := by
  have e1 : W1 m ρ c = after Stretch0.post0 (after Stretch0.pre0 (W0 m ρ c)) := by
    show after hostOps0 (W0 m ρ c) = _
    rw [Stretch0.cut0, Stretch0.after_append]
  have s1 : W1 m ρ c (Proc.devRef .tc main_v5) = val_main_v6 (F := Ideal) A1 := by
    rw [e1, Stretch0.post_keep5]; exact Stretch0.pre_src (W0 m ρ c)
  have d1 : W1 m ρ c (Proc.devRef .tc main_v6) = val_main_v7 (F := Ideal) A1 := by
    rw [e1, Stretch0.post_keep6]; exact Stretch0.pre_dst (W0 m ρ c)
  have d0 : after Stretch0.pre0 (W0 m ρ c) (Proc.devRef .tc main_v6) = val_main_v7 (F := Ideal) A1 := Stretch0.pre_dst (W0 m ρ c)
  have p1 := Stretch0.post_pos (after Stretch0.pre0 (W0 m ρ c)) A1 d0
  have r1 := Stretch0.post_rsqrt (after Stretch0.pre0 (W0 m ρ c)) A1 d0
  have z1 := Stretch0.post_zero (after Stretch0.pre0 (W0 m ρ c))
  rw [← e1] at p1 r1 z1
  have s2 : W2 m ρ c (Proc.devRef .tc main_v5) = val_main_v6 (F := Ideal) A1 := (Stretch0.dis_keep5 (W1 m ρ c)).trans s1
  have d2 : W2 m ρ c (Proc.devRef .tc main_v6) = val_main_v7 (F := Ideal) A1 := (Stretch0.dis_keep6 (W1 m ρ c)).trans d1
  have i2 := Stretch0.dis_stage (W1 m ρ c) A1 p1 r1 z1
  exact ⟨(Stretch0.norm_keep5 (W2 m ρ c)).trans s2, (Stretch0.norm_keep6 (W2 m ρ c)).trans d2,
    Stretch0.norm_stage (W2 m ρ c) A1 s2 d2 i2⟩

theorem W3_arg0 : W3 m ρ c (Proc.devRef .tc main_arg0) = A0 := by walk_down <;> rfl
theorem W3_arg3 : W3 m ρ c (Proc.devRef .tc main_arg3) = A3 := by walk_down <;> rfl

end Cert.KernelIdeal.Chain

end
-- ==== Proof.ChainB.lean ====
/-
  The first layer. The dense kernel leaves X · W1 in its output array, which is the reference's first product. The
  host stretch that follows gathers the product's rows at the edges' sources, scales each by the edge's normalisation
  and adds them up at the edges' targets, exactly as the reference's first layer does, and recasts the bias as a
  one-row matrix. The epilogue kernel then leaves tanh (aggregate + bias), the reference's first hidden layer.
-/
import proofs.«128089_j63290638074050_1_alg».proof.Proof.ChainA

set_option quotPrecheck false
set_option maxRecDepth 16384

noncomputable section

namespace Cert.KernelIdeal.Chain

open Cert.KernelIdeal Cert.KernelIdeal.Gen Cert.KernelIdeal.Steps Cert.Layer
open Idealize.ShloMosaic Idealize.ShloMosaic.TcCoe Idealize.SL.Sem Idealize.ShloMosaic.StableHlo Idealize.ShloMosaic.ValueIdx
open Cert.ReferenceIdeal.ReadP (val_main_v4 val_main_v6 val_main_v7 val_main_v30 val_main_v43 val_main_v47 val_main_v48 val_main_v87
  val_main_v91 val_main_v92 val_main_v131 val_main_v135 val_main_v165)

variable (m : (ℓ : Loc nD τ sig) → Buf (Elt Ideal) ℓ) (ρ : Dev nD → PrngReg) (c : Dev nD)

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)
local notation "A8" => m ((c.tc : Thread nD τ).loc main_arg8)
local notation "A9" => m ((c.tc : Thread nD τ).loc main_arg9)
local notation "A10" => m ((c.tc : Thread nD τ).loc main_arg10)

theorem carried4 : Carried m c (W4 m ρ c) :=
  ⟨(step0_keep (W3 m ρ) c (r := main_v5) (by decide)).trans (carried3 m ρ c).src,
   (step0_keep (W3 m ρ) c (r := main_v6) (by decide)).trans (carried3 m ρ c).dst,
   (step0_keep (W3 m ρ) c (r := main_v29) (by decide)).trans (carried3 m ρ c).norm⟩

/-- The first dense kernel's output is the reference's product of the features with the first weights. -/
theorem W4_lin : W4 m ρ c (Proc.devRef .tc main_v30) = val_main_v4 (F := Ideal) A0 A3 := by
  refine (step0_out (W3 m ρ) c).trans ?_
  rw [W3_arg0 m ρ c, W3_arg3 m ρ c]
  exact Cert.Bridge.dense128_eq _ _

/-- The aggregated messages of the first layer. -/
theorem W5_agg : W5 m ρ c (Proc.devRef .tc main_v43) = val_main_v43 (F := Ideal) A0 A1 A3 := by
  dsimp only [W5, hostOps1]
  after_results_simp
  rw [W4_lin m ρ c, (carried4 m ρ c).src, (carried4 m ρ c).dst, (carried4 m ρ c).norm]
  rfl

theorem W4_arg4 : W4 m ρ c (Proc.devRef .tc main_arg4) = A4 := by walk_down <;> rfl

/-- The first bias as a one-row matrix. -/
theorem W5_biasRow : W5 m ρ c (Proc.devRef .tc main_v44)
    = shapeCast S1x512 (W4 m ρ c (Proc.devRef .tc main_arg4) : FVec Ideal S512 .f32) shapeCasts_S512_S1x512 := by
  dsimp only [W5, hostOps1]
  after_results_simp <;> rfl

theorem W5_bias (q : Fin 512) : W5 m ρ c (Proc.devRef .tc main_v44) (ix2 (0 : Fin 1) q) = A4 (ix1 q) := by
  rw [W5_biasRow, Cert.Bridge.rowCast_entry, W4_arg4]

theorem carried6 : Carried m c (W6 m ρ c) := by
  refine ⟨(step1_keep (W5 m ρ) c (r := main_v5) (by decide)).trans ?_,
    (step1_keep (W5 m ρ) c (r := main_v6) (by decide)).trans ?_,
    (step1_keep (W5 m ρ) c (r := main_v29) (by decide)).trans ?_⟩
  all_goals (dsimp only [W5, hostOps1]; after_results_simp)
  exacts [(carried4 m ρ c).src, (carried4 m ρ c).dst, (carried4 m ρ c).norm]

/-- The first hidden layer: tanh (aggregate + bias). -/
theorem W6_hid : W6 m ρ c (Proc.devRef .tc main_v45) = val_main_v47 (F := Ideal) A0 A1 A3 A4 := by
  refine (step1_out (W5 m ρ) c).trans ?_
  rw [W5_agg m ρ c]
  exact Cert.Bridge.biasTanh_eq _ _ A4 (W5_bias m ρ c)

theorem W6_arg5 : W6 m ρ c (Proc.devRef .tc main_arg5) = A5 := by walk_down <;> rfl

end Cert.KernelIdeal.Chain

end
-- ==== Proof.ChainC.lean ====
/-
  The second layer. The dense kernel multiplies the first hidden layer by W2, the reference's second product. The
  reference recomputes the index arrays and the normalisation at the start of every layer, by the same operations on the
  same edge list: they are the arrays the kernel computed once. With that the host stretch's aggregate is the
  reference's second aggregate, and the epilogue kernel leaves the reference's second hidden layer.
-/
import proofs.«128089_j63290638074050_1_alg».proof.Proof.ChainB

set_option quotPrecheck false
set_option maxRecDepth 16384

noncomputable section

namespace Cert.KernelIdeal.Chain

open Cert.KernelIdeal Cert.KernelIdeal.Gen Cert.KernelIdeal.Steps Cert.Layer
open Idealize.ShloMosaic Idealize.ShloMosaic.TcCoe Idealize.SL.Sem Idealize.ShloMosaic.StableHlo Idealize.ShloMosaic.ValueIdx
open Cert.ReferenceIdeal.ReadP (val_main_v4 val_main_v6 val_main_v7 val_main_v30 val_main_v43 val_main_v47 val_main_v48 val_main_v87
  val_main_v91 val_main_v92 val_main_v131 val_main_v135 val_main_v165)

variable (m : (ℓ : Loc nD τ sig) → Buf (Elt Ideal) ℓ) (ρ : Dev nD → PrngReg) (c : Dev nD)

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)
local notation "A8" => m ((c.tc : Thread nD τ).loc main_arg8)
local notation "A9" => m ((c.tc : Thread nD τ).loc main_arg9)
local notation "A10" => m ((c.tc : Thread nD τ).loc main_arg10)

theorem carried7 : Carried m c (W7 m ρ c) :=
  ⟨(step2_keep (W6 m ρ) c (r := main_v5) (by decide)).trans (carried6 m ρ c).src,
   (step2_keep (W6 m ρ) c (r := main_v6) (by decide)).trans (carried6 m ρ c).dst,
   (step2_keep (W6 m ρ) c (r := main_v29) (by decide)).trans (carried6 m ρ c).norm⟩

/-- The second dense kernel's output is the reference's product of the first hidden layer with the second weights. -/
theorem W7_lin : W7 m ρ c (Proc.devRef .tc main_v46) = val_main_v48 (F := Ideal) A0 A1 A3 A4 A5 := by
  refine (step2_out (W6 m ρ) c).trans ?_
  rw [W6_hid m ρ c, W6_arg5 m ρ c]
  exact Cert.Bridge.dense512_eq _ _

/-- The aggregated messages of the second layer. -/
theorem W8_agg : W8 m ρ c (Proc.devRef .tc main_v59) = val_main_v87 (F := Ideal) A0 A1 A3 A4 A5 := by
  dsimp only [W8, hostOps3]
  after_results_simp
  rw [W7_lin m ρ c, (carried7 m ρ c).src, (carried7 m ρ c).dst, (carried7 m ρ c).norm]
  rfl

theorem W7_arg6 : W7 m ρ c (Proc.devRef .tc main_arg6) = A6 := by walk_down <;> rfl

/-- The second bias as a one-row matrix. -/
theorem W8_biasRow : W8 m ρ c (Proc.devRef .tc main_v60)
    = shapeCast S1x512 (W7 m ρ c (Proc.devRef .tc main_arg6) : FVec Ideal S512 .f32) shapeCasts_S512_S1x512 := by
  dsimp only [W8, hostOps3]
  after_results_simp <;> rfl

theorem W8_bias (q : Fin 512) : W8 m ρ c (Proc.devRef .tc main_v60) (ix2 (0 : Fin 1) q) = A6 (ix1 q) := by
  rw [W8_biasRow, Cert.Bridge.rowCast_entry, W7_arg6]

theorem carried9 : Carried m c (W9 m ρ c) := by
  refine ⟨(step3_keep (W8 m ρ) c (r := main_v5) (by decide)).trans ?_,
    (step3_keep (W8 m ρ) c (r := main_v6) (by decide)).trans ?_,
    (step3_keep (W8 m ρ) c (r := main_v29) (by decide)).trans ?_⟩
  all_goals (dsimp only [W8, hostOps3]; after_results_simp)
  exacts [(carried7 m ρ c).src, (carried7 m ρ c).dst, (carried7 m ρ c).norm]

/-- The second hidden layer. -/
theorem W9_hid : W9 m ρ c (Proc.devRef .tc main_v61) = val_main_v91 (F := Ideal) A0 A1 A3 A4 A5 A6 := by
  refine (step3_out (W8 m ρ) c).trans ?_
  rw [W8_agg m ρ c]
  exact Cert.Bridge.biasTanh_eq _ _ A6 (W8_bias m ρ c)

theorem W9_arg7 : W9 m ρ c (Proc.devRef .tc main_arg7) = A7 := by walk_down <;> rfl

end Cert.KernelIdeal.Chain

end
-- ==== Proof.ChainD.lean ====
/-
  The third layer: the second layer's argument once more, with W3 and the third bias.
-/
import proofs.«128089_j63290638074050_1_alg».proof.Proof.ChainC

set_option quotPrecheck false
set_option maxRecDepth 16384

noncomputable section

namespace Cert.KernelIdeal.Chain

open Cert.KernelIdeal Cert.KernelIdeal.Gen Cert.KernelIdeal.Steps Cert.Layer
open Idealize.ShloMosaic Idealize.ShloMosaic.TcCoe Idealize.SL.Sem Idealize.ShloMosaic.StableHlo Idealize.ShloMosaic.ValueIdx
open Cert.ReferenceIdeal.ReadP (val_main_v4 val_main_v6 val_main_v7 val_main_v30 val_main_v43 val_main_v47 val_main_v48 val_main_v87
  val_main_v91 val_main_v92 val_main_v131 val_main_v135 val_main_v165)

variable (m : (ℓ : Loc nD τ sig) → Buf (Elt Ideal) ℓ) (ρ : Dev nD → PrngReg) (c : Dev nD)

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)
local notation "A8" => m ((c.tc : Thread nD τ).loc main_arg8)
local notation "A9" => m ((c.tc : Thread nD τ).loc main_arg9)
local notation "A10" => m ((c.tc : Thread nD τ).loc main_arg10)

theorem carried10 : Carried m c (W10 m ρ c) :=
  ⟨(step4_keep (W9 m ρ) c (r := main_v5) (by decide)).trans (carried9 m ρ c).src,
   (step4_keep (W9 m ρ) c (r := main_v6) (by decide)).trans (carried9 m ρ c).dst,
   (step4_keep (W9 m ρ) c (r := main_v29) (by decide)).trans (carried9 m ρ c).norm⟩

/-- The third dense kernel's output is the reference's product of the second hidden layer with the third weights. -/
theorem W10_lin : W10 m ρ c (Proc.devRef .tc main_v62) = val_main_v92 (F := Ideal) A0 A1 A3 A4 A5 A6 A7 := by
  refine (step4_out (W9 m ρ) c).trans ?_
  rw [W9_hid m ρ c, W9_arg7 m ρ c]
  exact Cert.Bridge.dense512_eq _ _

/-- The aggregated messages of the third layer. -/
theorem W11_agg : W11 m ρ c (Proc.devRef .tc main_v75) = val_main_v131 (F := Ideal) A0 A1 A3 A4 A5 A6 A7 := by
  dsimp only [W11, hostOps5]
  after_results_simp
  rw [W10_lin m ρ c, (carried10 m ρ c).src, (carried10 m ρ c).dst, (carried10 m ρ c).norm]
  rfl

theorem W10_arg8 : W10 m ρ c (Proc.devRef .tc main_arg8) = A8 := by walk_down <;> rfl

/-- The third bias as a one-row matrix. -/
theorem W11_biasRow : W11 m ρ c (Proc.devRef .tc main_v76)
    = shapeCast S1x512 (W10 m ρ c (Proc.devRef .tc main_arg8) : FVec Ideal S512 .f32) shapeCasts_S512_S1x512 := by
  dsimp only [W11, hostOps5]
  after_results_simp <;> rfl

theorem W11_bias (q : Fin 512) : W11 m ρ c (Proc.devRef .tc main_v76) (ix2 (0 : Fin 1) q) = A8 (ix1 q) := by
  rw [W11_biasRow, Cert.Bridge.rowCast_entry, W10_arg8]

/-- The third hidden layer. -/
theorem W12_hid : W12 m ρ c (Proc.devRef .tc main_v77) = val_main_v135 (F := Ideal) A0 A1 A3 A4 A5 A6 A7 A8 := by
  refine (step5_out (W11 m ρ) c).trans ?_
  rw [W11_agg m ρ c]
  exact Cert.Bridge.biasTanh_eq _ _ A8 (W11_bias m ρ c)

end Cert.KernelIdeal.Chain

end
-- ==== Proof.ChainE.lean ====
/-
  The link scores. The last host stretch picks the two endpoint nodes of every training edge out of the edge list,
  gathers their rows of the third hidden layer, multiplies the rows entry by entry, applies the final linear map and
  adds its bias: operation for operation the reference's tail, on the same third hidden layer.
-/
import proofs.«128089_j63290638074050_1_alg».proof.Proof.ChainD

set_option quotPrecheck false
set_option maxRecDepth 16384

noncomputable section

namespace Cert.KernelIdeal.Chain

open Cert.KernelIdeal Cert.KernelIdeal.Gen Cert.KernelIdeal.Steps Cert.Layer
open Idealize.ShloMosaic Idealize.ShloMosaic.TcCoe Idealize.SL.Sem Idealize.ShloMosaic.StableHlo Idealize.ShloMosaic.ValueIdx
open Cert.ReferenceIdeal.ReadP (val_main_v4 val_main_v6 val_main_v7 val_main_v30 val_main_v43 val_main_v47 val_main_v48 val_main_v87
  val_main_v91 val_main_v92 val_main_v131 val_main_v135 val_main_v165)

variable (m : (ℓ : Loc nD τ sig) → Buf (Elt Ideal) ℓ) (ρ : Dev nD → PrngReg) (c : Dev nD)

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)
local notation "A8" => m ((c.tc : Thread nD τ).loc main_arg8)
local notation "A9" => m ((c.tc : Thread nD τ).loc main_arg9)
local notation "A10" => m ((c.tc : Thread nD τ).loc main_arg10)

theorem W12_arg1 : W12 m ρ c (Proc.devRef .tc main_arg1) = A1 := by walk_down <;> rfl
theorem W12_arg2 : W12 m ρ c (Proc.devRef .tc main_arg2) = A2 := by walk_down <;> rfl
theorem W12_arg9 : W12 m ρ c (Proc.devRef .tc main_arg9) = A9 := by walk_down <;> rfl
theorem W12_arg10 : W12 m ρ c (Proc.devRef .tc main_arg10) = A10 := by walk_down <;> rfl

/-- The program's result array is the reference's result, as a function of the eleven argument arrays. -/
theorem result_eq : W13 m ρ c (Proc.devRef .tc main_v107) = val_main_v165 (F := Ideal) A0 A1 A2 A3 A4 A5 A6 A7 A8 A9 A10 := by
  dsimp only [W13, hostOps6]
  after_results_simp
  rw [W12_hid m ρ c, W12_arg1 m ρ c, W12_arg2 m ρ c, W12_arg9 m ρ c, W12_arg10 m ρ c]
  rfl

end Cert.KernelIdeal.Chain

end
-- ==== Proof.lean ====
/-
  A three-layer graph-convolution network with a link-prediction head, as a kernel program and as a reference.

  Both programs take node features X, an edge list, a list of training edges and the layers' weights and biases. Each
  layer multiplies the node features by a weight matrix, sends every node's row along its outgoing edges (every node also
  has a self loop) scaled by 1/sqrt(deg(source)) · 1/sqrt(deg(target)), sums what arrives at each node, adds the bias and
  applies tanh. The head multiplies, entry by entry, the third hidden layer's rows at the two endpoints of every training
  edge, applies a 512 → 1 linear map and adds its bias.

  The kernel program runs the three matrix products and the three bias + tanh steps as tiled kernels over blocks of 2000
  rows, with the products' operands rounded to bfloat16, and computes the edge normalisation once. The reference runs
  everything as whole-array operations and recomputes the normalisation in every layer. At exact arithmetic a change of
  float format does nothing, a tiled product into a zero accumulator is the whole product, the 25 row blocks tile the
  50000 rows, and the recomputed normalisation is the same function of the edge list: the two programs' results are the
  same function of the eleven argument arrays. No law of the extended reals beyond that is used, so the finiteness of the
  inputs is never opened.

  The two kernel programs' frame claims are the generated frame certificates; the reference's is its run with the result
  dropped. The idealization rewrote nothing, so the kernel program is its own idealization's original.
-/
import proofs.«128089_j63290638074050_1_alg».proof.Defs
import proofs.«128089_j63290638074050_1_alg».proof.Proof.Gen.Kernel
import proofs.«128089_j63290638074050_1_alg».proof.Proof.Gen.Kernel.Frame
import proofs.«128089_j63290638074050_1_alg».proof.Proof.Gen.KernelIdeal
import proofs.«128089_j63290638074050_1_alg».proof.Proof.Gen.KernelIdeal.Frame
import proofs.«128089_j63290638074050_1_alg».proof.Proof.Gen.ReferenceIdeal
import proofs.«128089_j63290638074050_1_alg».proof.Proof.Gen.Pre_finite_inputs
import proofs.«128089_j63290638074050_1_alg».proof.Proof.KernelRun
import proofs.«128089_j63290638074050_1_alg».proof.Proof.ChainE
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the same result array: the kernel program's is the
    last boundary's contents of its result buffer, the reference's is its last stage, and the two are one function of
    the arguments. -/
theorem algebraic : Cert.algebraic_KernelIdeal_ReferenceIdeal := by
  intro m ρ m' ρ' _ hagree
  refine ⟨fun c => Cert.KernelIdeal.Gen.W13 m ρ c (Proc.devRef .tc Cert.KernelIdeal.main_v107),
    Cert.KernelIdeal.RunValue.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  show Cert.ReferenceIdeal.ValueP.res_main_v165 m' c
    = Cert.KernelIdeal.Gen.W13 m ρ c (Proc.devRef .tc Cert.KernelIdeal.main_v107)
  rw [Cert.ReferenceIdeal.ReadP.val_main_v165_eq m' c, Cert.KernelIdeal.Chain.result_eq m ρ c,
    h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
